-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64 : Shape := ⟨1, ![64]⟩
abbrev S8192x64 : Shape := ⟨2, ![8192, 64]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn_part1 {F : FTy → Type} [FloatOps F] (main_arg0 : FVec F S64 .f32) (main_v13 : IVec S_ 1) (main_v15 : IVec S64 1) (main_c_5 : IVec S_ 1) : IVec S_ 1 :=
  let main_v16 : IVec S_ 1 := (fun x v => Host.reduce IntOp.andi x v reducesTo_S64_S_d0 h_S_) main_v15 main_c_5
  let main_v17 : IVec S_ 1 := andi main_v13 main_v16
  let main_cst_6 : FVec F S_ .f32 := constant S_ .f32 0x3F800000#32
  let main_v18 : FVec F S64 .f32 := broadcastInDim S64 ![] bcast_S_S64 main_cst_6
  let main_v19 : IVec S64 1 := cmpf .olt main_arg0 main_v18
  let main_c_7 : IVec S_ 1 := constantI S_ 1 1#1
  let main_v20 : IVec S_ 1 := (fun x v => Host.reduce IntOp.andi x v reducesTo_S64_S_d0 h_S_) main_v19 main_c_7
  let main_v21 : IVec S_ 1 := andi main_v17 main_v20
  main_v21

def fn {F : FTy → Type} [FloatOps F] (main_arg0 : FVec F S64 .f32) (main_arg1 : FVec F S8192x64 .f32) (main_arg2 : FVec F S8192x64 .f32) : IVec S_ 1 :=
  let main_v0 : FVec F S64 .f32 := Host.absf main_arg0
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_cst_4 : FVec F S_ .f32 := constant S_ .f32 0x00000000#32
  let main_v14 : FVec F S64 .f32 := broadcastInDim S64 ![] bcast_S_S64 main_cst_4
  let main_v15 : IVec S64 1 := cmpf .ogt main_arg0 main_v14
  let main_c_5 : IVec S_ 1 := constantI S_ 1 1#1
  fn_part1 (F := F) main_arg0 main_v13 main_v15 main_c_5
-- ==== Kernel.lean ====
abbrev S64 : Shape := ⟨1, ![64]⟩
abbrev S8192x64 : Shape := ⟨2, ![8192, 64]⟩
abbrev S_ : Shape := ⟨0, ![]⟩
abbrev S1x64 : Shape := ⟨2, ![1, 64]⟩
abbrev S8192x256 : Shape := ⟨2, ![8192, 256]⟩
abbrev S1x1 : Shape := ⟨2, ![1, 1]⟩
abbrev S8192x8192 : Shape := ⟨2, ![8192, 8192]⟩
abbrev S128x256 : Shape := ⟨2, ![128, 256]⟩
abbrev S128x8192 : Shape := ⟨2, ![128, 8192]⟩
abbrev S256x8192 : Shape := ⟨2, ![256, 8192]⟩
abbrev S128 : Shape := ⟨1, ![128]⟩
abbrev S128x1 : Shape := ⟨2, ![128, 1]⟩

abbrev nBuf : Space → Nat
  | .hbm => 87
  | .vmem => 9
  | .smem => 0
  | _ => 0

abbrev bufTy : (tb : Table) → Fin (tcTables nBuf tb) → BufTy
  | .hbm, ⟨0, _⟩ => ⟨S64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S64, .bf16⟩
  | .hbm, ⟨19, _⟩ => ⟨S64, .f32⟩
  | .hbm, ⟨20, _⟩ => ⟨S64, .f32⟩
  | .hbm, ⟨21, _⟩ => ⟨S64, .bf16⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S8192x64, .f32⟩
  | .hbm, ⟨26, _⟩ => ⟨S8192x64, .i1⟩
  | .hbm, ⟨27, _⟩ => ⟨S8192x64, .f32⟩
  | .hbm, ⟨28, _⟩ => ⟨S1x64, .f32⟩
  | .hbm, ⟨29, _⟩ => ⟨S8192x64, .f32⟩
  | .hbm, ⟨30, _⟩ => ⟨S8192x64, .f32⟩
  | .hbm, ⟨31, _⟩ => ⟨S1x64, .f32⟩
  | .hbm, ⟨32, _⟩ => ⟨S8192x64, .f32⟩
  | .hbm, ⟨33, _⟩ => ⟨S8192x64, .f32⟩
  | .hbm, ⟨34, _⟩ => ⟨S_, .f32⟩
  | .hbm, ⟨35, _⟩ => ⟨S8192x64, .f32⟩
  | .hbm, ⟨36, _⟩ => ⟨S8192x64, .i1⟩
  | .hbm, ⟨37, _⟩ => ⟨S8192x64, .bf16⟩
  | .hbm, ⟨38, _⟩ => ⟨S_, .f32⟩
  | .hbm, ⟨39, _⟩ => ⟨S8192x64, .f32⟩
  | .hbm, ⟨40, _⟩ => ⟨S8192x64, .i1⟩
  | .hbm, ⟨41, _⟩ => ⟨S8192x64, .f32⟩
  | .hbm, ⟨42, _⟩ => ⟨S1x64, .f32⟩
  | .hbm, ⟨43, _⟩ => ⟨S8192x64, .f32⟩
  | .hbm, ⟨44, _⟩ => ⟨S8192x64, .f32⟩
  | .hbm, ⟨45, _⟩ => ⟨S1x64, .f32⟩
  | .hbm, ⟨46, _⟩ => ⟨S8192x64, .f32⟩
  | .hbm, ⟨47, _⟩ => ⟨S8192x64, .f32⟩
  | .hbm, ⟨48, _⟩ => ⟨S_, .f32⟩
  | .hbm, ⟨49, _⟩ => ⟨S8192x64, .f32⟩
  | .hbm, ⟨50, _⟩ => ⟨S8192x64, .i1⟩
  | .hbm, ⟨51, _⟩ => ⟨S8192x64, .bf16⟩
  | .hbm, ⟨52, _⟩ => ⟨S_, .f32⟩
  | .hbm, ⟨53, _⟩ => ⟨S8192x64, .f32⟩
  | .hbm, ⟨54, _⟩ => ⟨S8192x64, .i1⟩
  | .hbm, ⟨55, _⟩ => ⟨S8192x64, .f32⟩
  | .hbm, ⟨56, _⟩ => ⟨S1x64, .f32⟩
  | .hbm, ⟨57, _⟩ => ⟨S8192x64, .f32⟩
  | .hbm, ⟨58, _⟩ => ⟨S8192x64, .f32⟩
  | .hbm, ⟨59, _⟩ => ⟨S1x64, .f32⟩
  | .hbm, ⟨60, _⟩ => ⟨S8192x64, .f32⟩
  | .hbm, ⟨61, _⟩ => ⟨S8192x64, .f32⟩
  | .hbm, ⟨62, _⟩ => ⟨S_, .f32⟩
  | .hbm, ⟨63, _⟩ => ⟨S8192x64, .f32⟩
  | .hbm, ⟨64, _⟩ => ⟨S8192x64, .i1⟩
  | .hbm, ⟨65, _⟩ => ⟨S8192x64, .bf16⟩
  | .hbm, ⟨66, _⟩ => ⟨S_, .f32⟩
  | .hbm, ⟨67, _⟩ => ⟨S8192x64, .f32⟩
  | .hbm, ⟨68, _⟩ => ⟨S8192x64, .i1⟩
  | .hbm, ⟨69, _⟩ => ⟨S8192x64, .f32⟩
  | .hbm, ⟨70, _⟩ => ⟨S1x64, .f32⟩
  | .hbm, ⟨71, _⟩ => ⟨S8192x64, .f32⟩
  | .hbm, ⟨72, _⟩ => ⟨S8192x64, .f32⟩
  | .hbm, ⟨73, _⟩ => ⟨S1x64, .f32⟩
  | .hbm, ⟨74, _⟩ => ⟨S8192x64, .f32⟩
  | .hbm, ⟨75, _⟩ => ⟨S8192x64, .f32⟩
  | .hbm, ⟨76, _⟩ => ⟨S_, .f32⟩
  | .hbm, ⟨77, _⟩ => ⟨S8192x64, .f32⟩
  | .hbm, ⟨78, _⟩ => ⟨S8192x64, .i1⟩
  | .hbm, ⟨79, _⟩ => ⟨S8192x64, .bf16⟩
  | .hbm, ⟨80, _⟩ => ⟨S8192x256, .f32⟩
  | .hbm, ⟨81, _⟩ => ⟨S8192x256, .bf16⟩
  | .hbm, ⟨82, _⟩ => ⟨S8192x256, .f32⟩
  | .hbm, ⟨83, _⟩ => ⟨S8192x256, .bf16⟩
  | .hbm, ⟨84, _⟩ => ⟨S8192x256, .bf16⟩
  | .hbm, ⟨85, _⟩ => ⟨S1x1, .f32⟩
  | .hbm, ⟨86, _⟩ => ⟨S8192x8192, .f32⟩
  | .local _ .vmem, ⟨0, _⟩ => ⟨S1x1, .f32⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S8192x256, .bf16⟩
  | .local _ .vmem, ⟨6, _⟩ => ⟨S128x8192, .f32⟩
  | .local _ .vmem, ⟨7, _⟩ => ⟨S128x8192, .f32⟩
  | .local _ .vmem, ⟨8, _⟩ => ⟨S128x8192, .f32⟩
  | _, _ => ⟨S64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_10 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8192x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S64 : S_.BroadcastsInDim S64 (![] : Fin 0 → Fin S64.rank)
  reducesTo_S64_S_d0 : S64.ReducesTo [0] S_
  h_S_ : 0 < S_.numel
  bitsLt_bf16_f32 : FTy.bits .bf16 < FTy.bits .f32
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  concatenates_S8192x64_S8192x64_S8192x64_S8192x64_S8192x256_d1 : Shape.Concatenates [S8192x64, S8192x64, S8192x64, S8192x64] S8192x256 1
  shapeCasts_S_S1x1 : S_.ShapeCasts S1x1
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  transposes_S8192x256_p1_0_S256x8192 : S8192x256.Transposes [1, 0] S256x8192
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S128x8192_S128 : S128x8192.Reduces [1] S128
  shapeCasts_S128_S128x1 : S128.ShapeCasts S128x1
  broadcasts_S1x1_S128x1 : S1x1.Broadcasts S128x1
  broadcasts_S128x1_S128x8192 : S128x1.Broadcasts S128x8192
  dot_S128x256_S256x8192_S128x8192_1_0_0_1_n_n_wf : DotDims.WF S128x256 S256x8192 S128x8192 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S8192x256.size a
  hwx0_1 : ∀ i : grid0.Coords, EltTy.bits .bf16 = 32 ∨ (Rect.block (s := S8192x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S8192x256.size a
  hwx0_2 : ∀ i : grid0.Coords, EltTy.bits .bf16 = 32 ∨ (Rect.block (s := S8192x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x256.size a ≤ S8192x256.size a
  hwx0_3 : ∀ i : grid0.Coords, EltTy.bits .bf16 = 32 ∨ (Rect.block (s := S8192x256) S8192x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x8192.size a ≤ S8192x8192.size a
  hwx0_4 : ∀ i : grid0.Coords, EltTy.bits .f32 = 32 ∨ (Rect.block (s := S8192x8192) S128x8192.size (cc0_transform_4 i) (hinb0_4 i)).WholeWords (EltTy.packing .f32)

variable [Facts₀]

def dot_S128x256_S256x8192_S128x8192_1_0_0_1_n_n : DotDims S128x256 S256x8192 S128x8192 where
  lhsContracting := [1]
  rhsContracting := [0]
  lhsNonContracting := [0]
  rhsNonContracting := [1]
  lhsBatch := []
  rhsBatch := []
  wf := dot_S128x256_S256x8192_S128x8192_1_0_0_1_n_n_wf

abbrev win0_0 : Pipeline.Window sig grid0 :=
  Pipeline.Window.ofSpec (Memref.whole main_v70) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v66) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v68) S128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v69) S8192x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v71) S128x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64 : Shape := ⟨1, ![64]⟩
abbrev S8192x64 : Shape := ⟨2, ![8192, 64]⟩
abbrev S_ : Shape := ⟨0, ![]⟩
abbrev S8192x8192 : Shape := ⟨2, ![8192, 8192]⟩
abbrev S1x64 : Shape := ⟨2, ![1, 64]⟩
abbrev S64x8192 : Shape := ⟨2, ![64, 8192]⟩
abbrev S8192 : Shape := ⟨1, ![8192]⟩
abbrev S8192x1 : Shape := ⟨2, ![8192, 1]⟩

abbrev nBuf : Space → Nat
  | .hbm => 86
  | .vmem => 0
  | .smem => 0
  | _ => 0

abbrev bufTy : (tb : Table) → Fin (tcTables nBuf tb) → BufTy
  | .hbm, ⟨0, _⟩ => ⟨S64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x8192, .f32⟩
  | .hbm, ⟨20, _⟩ => ⟨S_, .f32⟩
  | .hbm, ⟨21, _⟩ => ⟨S8192x64, .f32⟩
  | .hbm, ⟨22, _⟩ => ⟨S8192x64, .i1⟩
  | .hbm, ⟨23, _⟩ => ⟨S8192x64, .f32⟩
  | .hbm, ⟨24, _⟩ => ⟨S1x64, .f32⟩
  | .hbm, ⟨25, _⟩ => ⟨S8192x64, .f32⟩
  | .hbm, ⟨26, _⟩ => ⟨S8192x64, .f32⟩
  | .hbm, ⟨27, _⟩ => ⟨S_, .f32⟩
  | .hbm, ⟨28, _⟩ => ⟨S8192x64, .f32⟩
  | .hbm, ⟨29, _⟩ => ⟨S8192x64, .i1⟩
  | .hbm, ⟨30, _⟩ => ⟨S8192x64, .f32⟩
  | .hbm, ⟨31, _⟩ => ⟨S64x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192x64, .f32⟩
  | .hbm, ⟨36, _⟩ => ⟨S8192x64, .i1⟩
  | .hbm, ⟨37, _⟩ => ⟨S8192x64, .f32⟩
  | .hbm, ⟨38, _⟩ => ⟨S1x64, .f32⟩
  | .hbm, ⟨39, _⟩ => ⟨S8192x64, .f32⟩
  | .hbm, ⟨40, _⟩ => ⟨S8192x64, .f32⟩
  | .hbm, ⟨41, _⟩ => ⟨S_, .f32⟩
  | .hbm, ⟨42, _⟩ => ⟨S8192x64, .f32⟩
  | .hbm, ⟨43, _⟩ => ⟨S8192x64, .i1⟩
  | .hbm, ⟨44, _⟩ => ⟨S8192x64, .f32⟩
  | .hbm, ⟨45, _⟩ => ⟨S64x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192x64, .f32⟩
  | .hbm, ⟨50, _⟩ => ⟨S8192x64, .i1⟩
  | .hbm, ⟨51, _⟩ => ⟨S8192x64, .f32⟩
  | .hbm, ⟨52, _⟩ => ⟨S1x64, .f32⟩
  | .hbm, ⟨53, _⟩ => ⟨S8192x64, .f32⟩
  | .hbm, ⟨54, _⟩ => ⟨S8192x64, .f32⟩
  | .hbm, ⟨55, _⟩ => ⟨S_, .f32⟩
  | .hbm, ⟨56, _⟩ => ⟨S8192x64, .f32⟩
  | .hbm, ⟨57, _⟩ => ⟨S8192x64, .i1⟩
  | .hbm, ⟨58, _⟩ => ⟨S8192x64, .f32⟩
  | .hbm, ⟨59, _⟩ => ⟨S64x8192, .f32⟩
  | .hbm, ⟨60, _⟩ => ⟨S8192x8192, .f32⟩
  | .hbm, ⟨61, _⟩ => ⟨S8192x8192, .f32⟩
  | .hbm, ⟨62, _⟩ => ⟨S_, .f32⟩
  | .hbm, ⟨63, _⟩ => ⟨S8192x64, .f32⟩
  | .hbm, ⟨64, _⟩ => ⟨S8192x64, .i1⟩
  | .hbm, ⟨65, _⟩ => ⟨S8192x64, .f32⟩
  | .hbm, ⟨66, _⟩ => ⟨S1x64, .f32⟩
  | .hbm, ⟨67, _⟩ => ⟨S8192x64, .f32⟩
  | .hbm, ⟨68, _⟩ => ⟨S8192x64, .f32⟩
  | .hbm, ⟨69, _⟩ => ⟨S_, .f32⟩
  | .hbm, ⟨70, _⟩ => ⟨S8192x64, .f32⟩
  | .hbm, ⟨71, _⟩ => ⟨S8192x64, .i1⟩
  | .hbm, ⟨72, _⟩ => ⟨S8192x64, .f32⟩
  | .hbm, ⟨73, _⟩ => ⟨S64x8192, .f32⟩
  | .hbm, ⟨74, _⟩ => ⟨S8192x8192, .f32⟩
  | .hbm, ⟨75, _⟩ => ⟨S8192x8192, .f32⟩
  | .hbm, ⟨76, _⟩ => ⟨S8192x8192, .f32⟩
  | .hbm, ⟨77, _⟩ => ⟨S8192x8192, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S8192x8192, .f32⟩
  | .hbm, ⟨82, _⟩ => ⟨S8192x8192, .f32⟩
  | .hbm, ⟨83, _⟩ => ⟨S8192x8192, .f32⟩
  | .hbm, ⟨84, _⟩ => ⟨S8192x8192, .f32⟩
  | .hbm, ⟨85, _⟩ => ⟨S8192x8192, .f32⟩
  | _, _ => ⟨S64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_9 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]

class Facts₀ : Prop where
  bcast_S_S64 : S_.BroadcastsInDim S64 (![] : Fin 0 → Fin S64.rank)
  reducesTo_S64_S_d0 : S64.ReducesTo [0] S_
  h_S_ : 0 < S_.numel
  bcast_S_S8192x8192 : S_.BroadcastsInDim S8192x8192 (![] : Fin 0 → Fin S8192x8192.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  reducesTo_S8192x8192_S8192_d1 : S8192x8192.ReducesTo [1] S8192
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.KBaseB.lean ====
/-
  The kernel program up to its one pallas_call: what every TensorCore buffer holds when the region is entered
  (`V`: the launch memory folded through the 83 host operations that build the one-hot tables and the scalar shift),
  that @main is exactly those operations followed by the region (`hmain`), and that none of the 83 operations
  writes an argument array, so the region finds the three arguments as launched (`V_main_arg0..2`).
  The four concatenations are the only operations with more than two operands; each writes its one result buffer
  like every other operation.
-/
import proofs.«167106_j53506702573581_2_alg».proof.Proof.Gen.Kernel.Launch
import proofs.«167106_j53506702573581_2_alg».proof.Proof.Gen.Kernel.Skeleton
import proofs.«167106_j53506702573581_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s TensorCore buffers when the region is entered: after the 83 host operations. -/
abbrev V (c : Dev nD) (b : Ref sig .tc) : Buf (Elt F) ((c : Thread nD τ).loc b) :=
  StableHlo.after hostOps0 (fun b => m (c, b)) b

set_option maxHeartbeats 4000000 in
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000 in
/-- No host operation writes the bandwidths. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

set_option maxHeartbeats 4000000 in
/-- No host operation writes the test rows. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

set_option maxHeartbeats 4000000 in
/-- No host operation writes the train rows. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.FrameB.lean ====
/-
  The frame of the kernel program, at any float instance: every weakly fair execution terminates without a fault and
  leaves the three argument arrays as launched; and, beyond the frame, what the result array holds at the end
  (`run_main`: the library's `arrAt` of the per-point blocks).
  One grid point of the pallas_call computes, from the scalar shift block x0 [1,1], the two weighted test one-hot blocks
  x1, x2 [128,256] and the whole train one-hot table x3 [8192,256]: the product x1 · x3ᵀ stored into the scratch, read back,
  the product x2 · x3ᵀ added to it and stored again, read back as the match block, and then the row maximum, the shifted
  maximum and the exponential of the difference multiplied together into the output block. Every load and store is of a whole
  buffer, so each read-back is the payload just stored, and the output block is the composition `out0_4` of the payloads.
  The scratch holds anything before a point and something after it: it stays inside the region's invariant.
-/
import proofs.«167106_j53506702573581_2_alg».proof.Proof.KBaseB
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input windows' staging buffers hold their blocks -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The three arguments are arrays no window stages: the run leaves them at their region-entry contents, which are the
    launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body -/

theorem hz2 : (![0, 0] : Fin 2 → Nat) = fun _ => 0 := by funext a; fin_cases a <;> rfl

/-- A whole-buffer load after stores the LAST of which was a whole-buffer store reads that store's payload. -/
theorem readCov_cons_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The output block of one grid point from the four input blocks: the epilogue's payload of the match block
    (the second product added to the first) and the shift. -/
def out0_4 (x0 : Vec F S1x1 .f32) (x1 : Vec F S128x256 .bf16) (x2 : Vec F S128x256 .bf16) (x3 : Vec F S8192x256 .bf16) : Vec F S128x8192 .f32 :=
  k0_pay4 (k0_pay3 x3 (k0_pay2 x3 x1) x2) x0

set_option maxHeartbeats 4000000 in
/-- The body on whole staging memrefs: the inputs at read contents, the output and the scratch at anything, runs to the
    inputs as they were, the output at `out0_4` of the inputs, and the scratch at something. -/
theorem sound_kernel (c : Dev nD) (E : Set ℕ) (i : grid0.Coords)
    (arg1 : Memref sig .tc .vmem S1x1 .f32) (harg1 : arg1.IsWhole) (arg2 : Memref sig .tc .vmem S128x256 .bf16) (harg2 : arg2.IsWhole)
    (arg3 : Memref sig .tc .vmem S128x256 .bf16) (harg3 : arg3.IsWhole) (arg4 : Memref sig .tc .vmem S8192x256 .bf16) (harg4 : arg4.IsWhole)
    (arg5 : Memref sig .tc .vmem S128x8192 .f32) (harg5 : arg5.IsWhole) (arg6 : Memref sig .tc .vmem S128x8192 .f32) (harg6 : arg6.IsWhole)
    (x0 : Vec F S1x1 .f32) (x1 : Vec F S128x256 .bf16) (x2 : Vec F S128x256 .bf16) (x3 : Vec F S8192x256 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)
            ∗ (∃ d, owns (c : Thread nD τ) arg6 fullShare d)) -∗ K ⟨⟩))
      ⊢ wp frame (wpE (defs₀ (F := F)) Variants.none c none) E (cc0__aa_kernel i arg1 harg1 arg2 harg2 arg3 harg3 arg4 harg4 arg5 harg5 arg6 harg6) K := by
  simp only [cc0__aa_kernel_eq_skeleton]; unfold cc0__aa_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (View.cover_of_tiled _ S128x8192.size (by rfl)), View.canon_unit_zero hz2]
    simp only [readCov_cons_whole (S := S128x8192) _ hz2, View.readAt_eq_ld, View.ld_unit_zero (S := S8192x256) hz2, View.ld_unit_zero (S := S128x256) hz2, View.ld_unit_zero (S := S1x1) hz2]
    rfl
  iexists _, _; isplitr
  swap; · iexact H5
  ipureintro; rfl

/-! ## The pipeline's proof data -/

/-- The arrays as the region finds them; after the body at point `t` each input's buffer at its block and the output's
    at `out0_4` of the input blocks; the invariant the scoped rest (the scratch, at something) and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The invariant, opened: the scratch buffer whole at some contents, and the generator register at some state. -/
theorem Phi_eq (c : Dev nD) (t : Fin (cfg0.N + 1)) : (dats m 0 c).Φ t
    = iprop((∃ f, owns (c : Thread nD τ) (Memref.whole cc0_scratch0) fullShare f) ∗ ∃ r, prngReg c r) := by
  dsimp only [dats]; unfold Pipeline.ΦA; rw [scopedRest0_eq]; simp only [owns_whole]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, Phi_eq, Phi_eq]
  iintro ⟨⟨⟨%fs, Hs⟩, Hr⟩, Ho, ⟨%d0, H0⟩, ⟨%d1, H1⟩, ⟨%d2, H2⟩, ⟨%d3, H3⟩, ⟨%d4, H4⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [Hs]; · iexists _; iexact Hs
  iintro ⟨H0, H1, H2, H3, H4, Hs⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KBaseI.lean ====
/-
  The idealized kernel program up to its one pallas_call: what every TensorCore buffer holds when the region is entered
  (`V`: the launch memory folded through the 83 host operations that build the one-hot tables and the scalar shift),
  that @main is exactly those operations followed by the region (`hmain`), and that none of the 83 operations
  writes an argument array, so the region finds the three arguments as launched (`V_main_arg0..2`).
  The four concatenations are the only operations with more than two operands; each writes its one result buffer
  like every other operation.
-/
import proofs.«167106_j53506702573581_2_alg».proof.Proof.Gen.KernelIdeal.Launch
import proofs.«167106_j53506702573581_2_alg».proof.Proof.Gen.KernelIdeal.Skeleton
import proofs.«167106_j53506702573581_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s TensorCore buffers when the region is entered: after the 83 host operations. -/
abbrev V (c : Dev nD) (b : Ref sig .tc) : Buf (Elt F) ((c : Thread nD τ).loc b) :=
  StableHlo.after hostOps0 (fun b => m (c, b)) b

set_option maxHeartbeats 4000000 in
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000 in
/-- No host operation writes the bandwidths. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

set_option maxHeartbeats 4000000 in
/-- No host operation writes the test rows. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

set_option maxHeartbeats 4000000 in
/-- No host operation writes the train rows. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.FrameI.lean ====
/-
  The frame of the idealized kernel program, at any float instance: every weakly fair execution terminates without a fault and
  leaves the three argument arrays as launched; and, beyond the frame, what the result array holds at the end
  (`run_main`: the library's `arrAt` of the per-point blocks).
  One grid point of the pallas_call computes, from the scalar shift block x0 [1,1], the two weighted test one-hot blocks
  x1, x2 [128,256] and the whole train one-hot table x3 [8192,256]: the product x1 · x3ᵀ stored into the scratch, read back,
  the product x2 · x3ᵀ added to it and stored again, read back as the match block, and then the row maximum, the shifted
  maximum and the exponential of the difference multiplied together into the output block. Every load and store is of a whole
  buffer, so each read-back is the payload just stored, and the output block is the composition `out0_4` of the payloads.
  The scratch holds anything before a point and something after it: it stays inside the region's invariant.
-/
import proofs.«167106_j53506702573581_2_alg».proof.Proof.KBaseI
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input windows' staging buffers hold their blocks -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The three arguments are arrays no window stages: the run leaves them at their region-entry contents, which are the
    launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body -/

theorem hz2 : (![0, 0] : Fin 2 → Nat) = fun _ => 0 := by funext a; fin_cases a <;> rfl

/-- A whole-buffer load after stores the LAST of which was a whole-buffer store reads that store's payload. -/
theorem readCov_cons_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The output block of one grid point from the four input blocks: the epilogue's payload of the match block
    (the second product added to the first) and the shift. -/
def out0_4 (x0 : Vec F S1x1 .f32) (x1 : Vec F S128x256 .bf16) (x2 : Vec F S128x256 .bf16) (x3 : Vec F S8192x256 .bf16) : Vec F S128x8192 .f32 :=
  k0_pay4 (k0_pay3 x3 (k0_pay2 x3 x1) x2) x0

set_option maxHeartbeats 4000000 in
/-- The body on whole staging memrefs: the inputs at read contents, the output and the scratch at anything, runs to the
    inputs as they were, the output at `out0_4` of the inputs, and the scratch at something. -/
theorem sound_kernel (c : Dev nD) (E : Set ℕ) (i : grid0.Coords)
    (arg1 : Memref sig .tc .vmem S1x1 .f32) (harg1 : arg1.IsWhole) (arg2 : Memref sig .tc .vmem S128x256 .bf16) (harg2 : arg2.IsWhole)
    (arg3 : Memref sig .tc .vmem S128x256 .bf16) (harg3 : arg3.IsWhole) (arg4 : Memref sig .tc .vmem S8192x256 .bf16) (harg4 : arg4.IsWhole)
    (arg5 : Memref sig .tc .vmem S128x8192 .f32) (harg5 : arg5.IsWhole) (arg6 : Memref sig .tc .vmem S128x8192 .f32) (harg6 : arg6.IsWhole)
    (x0 : Vec F S1x1 .f32) (x1 : Vec F S128x256 .bf16) (x2 : Vec F S128x256 .bf16) (x3 : Vec F S8192x256 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)
            ∗ (∃ d, owns (c : Thread nD τ) arg6 fullShare d)) -∗ K ⟨⟩))
      ⊢ wp frame (wpE (defs₀ (F := F)) Variants.none c none) E (cc0__aa_kernel i arg1 harg1 arg2 harg2 arg3 harg3 arg4 harg4 arg5 harg5 arg6 harg6) K := by
  simp only [cc0__aa_kernel_eq_skeleton]; unfold cc0__aa_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (View.cover_of_tiled _ S128x8192.size (by rfl)), View.canon_unit_zero hz2]
    simp only [readCov_cons_whole (S := S128x8192) _ hz2, View.readAt_eq_ld, View.ld_unit_zero (S := S8192x256) hz2, View.ld_unit_zero (S := S128x256) hz2, View.ld_unit_zero (S := S1x1) hz2]
    rfl
  iexists _, _; isplitr
  swap; · iexact H5
  ipureintro; rfl

/-! ## The pipeline's proof data -/

/-- The arrays as the region finds them; after the body at point `t` each input's buffer at its block and the output's
    at `out0_4` of the input blocks; the invariant the scoped rest (the scratch, at something) and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The invariant, opened: the scratch buffer whole at some contents, and the generator register at some state. -/
theorem Phi_eq (c : Dev nD) (t : Fin (cfg0.N + 1)) : (dats m 0 c).Φ t
    = iprop((∃ f, owns (c : Thread nD τ) (Memref.whole cc0_scratch0) fullShare f) ∗ ∃ r, prngReg c r) := by
  dsimp only [dats]; unfold Pipeline.ΦA; rw [scopedRest0_eq]; simp only [owns_whole]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, Phi_eq, Phi_eq]
  iintro ⟨⟨⟨%fs, Hs⟩, Hr⟩, Ho, ⟨%d0, H0⟩, ⟨%d1, H1⟩, ⟨%d2, H2⟩, ⟨%d3, H3⟩, ⟨%d4, H4⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [Hs]; · iexists _; iexact Hs
  iintro ⟨H0, H1, H2, H3, H4, Hs⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.Spec.lean ====
/-
  The Aitchison–Aitken categorical kernel, index by index on the extended reals.

  For bandwidths `h f` (64 features), a test row `x` and a train row `y` (64 entries each, category levels 0..3
  stored as floats), the log-distance of the pair is
      base h + ∑ level ∑ feature [x f = level] · w (h f) · [y f = level],      w h = log (1 - h) - log (h / 3),
      base h = ∑ f log (h f / 3) - ∑ f log (h f),
  and the result at a test row is taken relative to that row's maximum over all 8192 train rows:
      out j = M · exp (logdist j - M),   M = max_j logdist j.
  `result` below is this value written with the shift `base` taken OUT of the maximum (the maximum of the match sums,
  plus base, times the exponential of the match sum less its maximum); `refResult` is the same value with the shift
  left inside. The two agree whenever `base` is a real number (SpecLaws).
-/
import Idealize.ShloMosaic.PureOps.Ideal
import Idealize.ShloMosaic.PureOps.Ideal.Laws
import Idealize.ShloMosaic.Lib.ValueIdx
import Idealize.ShloMosaic.Lib.IdealHost

noncomputable section

namespace Cert.AA

open Idealize.ShloMosaic

/-- The four category levels 0, 1, 2, 3 as the f32 words both programs compare against. -/
def lvlBits : Fin 4 → BitVec 32 := ![0x00000000#32, 0x3F800000#32, 0x40000000#32, 0x40400000#32]

/-- `[x = level]` as an extended real (0 or 1): the ordered-equal comparison read as an unsigned integer. -/
def ind (l : Fin 4) (x : EReal) : EReal :=
  (((Ideal.cmp .oeq x (Ideal.ofBits .f32 (lvlBits l))).toNat : ℝ) : EReal)

/-- The log-space weight of one feature: `log (1 - h) - log (h / 3)`. -/
def wOf (h : EReal) : EReal :=
  Ideal.log (Ideal.ofBits .f32 0x3F800000#32 - h) - Ideal.log (Ideal.div h (Ideal.ofBits .f32 0x40400000#32))

/-- The shift common to every pair: `∑ log (h f / 3) - ∑ log (h f)`, each sum started from the f32 zero. -/
def baseOf (h : Fin 64 → EReal) : EReal :=
  (Ideal.ofBits .f32 0x00000000#32 + ∑ f : Fin 64, Ideal.log (Ideal.div (h f) (Ideal.ofBits .f32 0x40400000#32)))
    - (Ideal.ofBits .f32 0x00000000#32 + ∑ f : Fin 64, Ideal.log (h f))

/-- The weighted match count of a test row `x` and a train row `y`. -/
def matchSum (h x y : Fin 64 → EReal) : EReal :=
  ∑ l : Fin 4, ∑ f : Fin 64, (ind l (x f) * wOf (h f)) * ind l (y f)

/-- A row's maximum over the 8192 train rows, from `-∞`. -/
def rowMax (a : Fin 8192 → EReal) : EReal := (Finset.univ : Finset (Fin 8192)).fold max ⊥ a

/-- The result with the shift outside the maximum. -/
def result (a : Fin 8192 → EReal) (b : EReal) (j : Fin 8192) : EReal :=
  (rowMax a + b) * Ideal.exp (a j - rowMax a)

/-- The result with the shift inside the maximum. -/
def refResult (a : Fin 8192 → EReal) (b : EReal) (j : Fin 8192) : EReal :=
  rowMax (fun j' => a j' + b) * Ideal.exp ((a j + b) - rowMax (fun j' => a j' + b))

/-- The whole function: the value at test row `i`, train row `j`, of bandwidths `h`, test rows `X`, train rows `Y`. -/
def G (h : Fin 64 → EReal) (X Y : Fin 8192 → Fin 64 → EReal) (i j : Fin 8192) : EReal :=
  result (fun j' => matchSum h (X i) (Y j')) (baseOf h) j

/-- The match sum as the reference accumulates it: one product of a [·, 64] by a [64, ·] matrix per level, each onto
    the f32 zero, added one after the other to a zero matrix. -/
def refMatch (h x y : Fin 64 → EReal) : EReal :=
  (((Ideal.ofBits .f32 0x00000000#32
      + (0 + ∑ f : Fin 64, (ind 0 (x f) * wOf (h f)) * ind 0 (y f)))
      + (0 + ∑ f : Fin 64, (ind 1 (x f) * wOf (h f)) * ind 1 (y f)))
      + (0 + ∑ f : Fin 64, (ind 2 (x f) * wOf (h f)) * ind 2 (y f)))
      + (0 + ∑ f : Fin 64, (ind 3 (x f) * wOf (h f)) * ind 3 (y f))

/-- The match sum as the kernel accumulates it: the four levels side by side along one contraction of length 256
    (column `64 l + f` is level `l`, feature `f`), the weight split into a leading part `w` and a residual `w - w`,
    one product for each, each onto the f32 zero. -/
def kerMatch (h x y : Fin 64 → EReal) : EReal :=
  (Ideal.ofBits .f32 0x00000000#32
      + ∑ k : Fin 256, (ind ⟨k.val / 64, by omega⟩ (x ⟨k.val % 64, by omega⟩) * wOf (h ⟨k.val % 64, by omega⟩))
          * ind ⟨k.val / 64, by omega⟩ (y ⟨k.val % 64, by omega⟩))
    + (Ideal.ofBits .f32 0x00000000#32
      + ∑ k : Fin 256, (ind ⟨k.val / 64, by omega⟩ (x ⟨k.val % 64, by omega⟩)
            * (wOf (h ⟨k.val % 64, by omega⟩) - wOf (h ⟨k.val % 64, by omega⟩)))
          * ind ⟨k.val / 64, by omega⟩ (y ⟨k.val % 64, by omega⟩))

end Cert.AA

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.PayAt.lean ====
/-
  The kernel body's output block read at one entry, at the ideal values.

  One grid point holds a block of 128 test rows. The body transposes the [8192, 256] train table, multiplies each of
  the two [128, 256] test blocks by it onto a zero accumulator, and adds the second product to the first: entry (p, j')
  of that match block is the sum over the 256 columns of x1 (p, k) · x3 (j', k) plus the same sum for x2 (the transposed
  table's (k, j') entry is the table's (j', k) entry). The epilogue takes each row's maximum over the 8192 train rows
  (the fold of `max` from -∞), adds the scalar shift to it, and multiplies that by the exponential of the entry less the
  row maximum: entry (p, q) of the output block is `result` of row p of the match block, the shift, and q. The same-shape
  casts are the identity; the cast of the [128] maxima to a [128, 1] column keeps the row-major position; the broadcasts
  of the [1, 1] shift to the column and of a column along the 8192 train rows read the column at its row.
-/
import proofs.«167106_j53506702573581_2_alg».proof.Proof.FrameI
import proofs.«167106_j53506702573581_2_alg».proof.Proof.Spec
import proofs.«167106_j53506702573581_2_alg».proof.Proof.LibMatmulZero
import Idealize.ShloMosaic.Lib.Pipeline.Value
import Idealize.ShloMosaic.Lib.ValueLayout
import Idealize.ShloMosaic.PureOps.Ideal.Laws

noncomputable section

namespace Cert.KernelIdeal.PayAt

open Cert.KernelIdeal Cert.KernelIdeal.Gen Idealize.ShloMosaic Idealize.ShloMosaic.ValueIdx

/-! ## The match block -/

/-- The transposed train table at (k, j') is the table at (j', k). -/
theorem pay1_at (x3 : FVec Ideal S8192x256 .bf16) (k : Fin 256) (j' : Fin 8192) :
    k0_pay1 (F := Ideal) x3 (ix2 k j') = x3 (ix2 j' k) := by
  unfold k0_pay1
  simp only [shapeCast_self]
  exact transpose_ix2_apply x3 _ k j'

/-- The product's result axis 0 is the left operand's axis 0 … -/
theorem dot_l0 (i : S128x8192.Idx) (c : dot_S128x256_S256x8192_S128x8192_1_0_0_1_n_n.contr.Idx) :
    (dot_S128x256_S256x8192_S128x8192_1_0_0_1_n_n.lhsIdx i c 0).val = (i 0).val := by
  unfold DotDims.lhsIdx
  rw [dif_neg (show ¬(0 : Fin _) ∈ dot_S128x256_S256x8192_S128x8192_1_0_0_1_n_n.lhsBatch by decide),
    dif_pos (show (0 : Fin _) ∈ dot_S128x256_S256x8192_S128x8192_1_0_0_1_n_n.lhsNonContracting by decide)]
  rfl

/-- … and its axis 1 the right operand's axis 1. -/
theorem dot_r1 (i : S128x8192.Idx) (c : dot_S128x256_S256x8192_S128x8192_1_0_0_1_n_n.contr.Idx) :
    (dot_S128x256_S256x8192_S128x8192_1_0_0_1_n_n.rhsIdx i c 1).val = (i 1).val := by
  unfold DotDims.rhsIdx
  rw [dif_neg (show ¬(1 : Fin _) ∈ dot_S128x256_S256x8192_S128x8192_1_0_0_1_n_n.rhsBatch by decide),
    dif_pos (show (1 : Fin _) ∈ dot_S128x256_S256x8192_S128x8192_1_0_0_1_n_n.rhsNonContracting by decide)]
  rfl

/-- A [128, 256] block times the transposed table, onto zero, at (p, j'): the sum over the 256 columns. -/
theorem prod_at (x : FVec Ideal S128x256 .bf16) (x3 : FVec Ideal S8192x256 .bf16) (p : Fin 128) (j' : Fin 8192) :
    matmul dot_S128x256_S256x8192_S128x8192_1_0_0_1_n_n none x (k0_pay1 (F := Ideal) x3) (constant S128x8192 .f32 0x00000000#32) (ix2 p j')
      = ∑ k : Fin 256, x (ix2 p k) * x3 (ix2 j' k) := by
  refine (Cert.LibMatmulZero.matmul_zero_ix2 dot_S128x256_S256x8192_S128x8192_1_0_0_1_n_n rfl rfl rfl rfl dot_l0 dot_r1 none x
    (k0_pay1 (F := Ideal) x3) p j').trans ?_
  exact Finset.sum_congr rfl fun k _ => by rw [pay1_at]

/-- The first product, as stored. -/
theorem pay2_at (x3 : FVec Ideal S8192x256 .bf16) (x1 : FVec Ideal S128x256 .bf16) (p : Fin 128) (j' : Fin 8192) :
    k0_pay2 (F := Ideal) x3 x1 (ix2 p j') = ∑ k : Fin 256, x1 (ix2 p k) * x3 (ix2 j' k) := by
  unfold k0_pay2
  simp only [shapeCast_self]
  exact prod_at x1 x3 p j'

/-- The second product added to what was read back, as stored. -/
theorem pay3_at (x3 : FVec Ideal S8192x256 .bf16) (v9 : FVec Ideal S128x8192 .f32) (x2 : FVec Ideal S128x256 .bf16)
    (p : Fin 128) (j' : Fin 8192) :
    k0_pay3 (F := Ideal) x3 v9 x2 (ix2 p j') = v9 (ix2 p j') + ∑ k : Fin 256, x2 (ix2 p k) * x3 (ix2 j' k) := by
  unfold k0_pay3
  simp only [shapeCast_self]
  rw [addf_apply, prod_at]

/-- The match block at (p, j'): the two sums. -/
theorem match_at (x1 x2 : FVec Ideal S128x256 .bf16) (x3 : FVec Ideal S8192x256 .bf16) (p : Fin 128) (j' : Fin 8192) :
    k0_pay3 (F := Ideal) x3 (k0_pay2 (F := Ideal) x3 x1) x2 (ix2 p j')
      = (∑ k : Fin 256, x1 (ix2 p k) * x3 (ix2 j' k)) + (∑ k : Fin 256, x2 (ix2 p k) * x3 (ix2 j' k)) := by
  rw [pay3_at, pay2_at]

/-! ## The epilogue -/

/-- The f32 word of -∞ is the bottom of the extended reals. -/
theorem ofBits_neg_inf : Ideal.ofBits .f32 0xFF800000#32 = (⊥ : EReal) := by
  simp [Ideal.ofBits, Ideal.ieee]

/-- The maximum-reduction over the train axis of a [128, 8192] block, from the -∞ word, at row `p`: the fold of `max`
    from -∞ over the 8192 entries of row `p`. -/
theorem rowmax_at (v17 : FVec Ideal S128x8192 .f32) (p : Fin 128) :
    multiReduction .maximumf [1] S128 v17 0xFF800000#32 reduces_S128x8192_S128 (.inl rfl) rfl (ix1 p)
      = Cert.AA.rowMax (fun j' => v17 (ix2 p j')) := by
  refine (Ideal.multiReduction_maximumf_single v17 0xFF800000#32 reduces_S128x8192_S128 (.inl rfl) rfl (ix1 p)).trans ?_
  have e : v17 ∘ reduces_S128x8192_S128.lift (ix1 p) = fun j' : Fin 8192 => v17 (ix2 p j') := by
    funext j'
    refine congrArg v17 (funext fun c => Fin.ext ?_)
    match c with
    | ⟨0, _⟩ => rfl
    | ⟨1, _⟩ => rfl
  rw [e]
  show (Finset.univ : Finset (Fin 8192)).fold max (Ideal.ofBits .f32 0xFF800000#32) _ = _
  rw [ofBits_neg_inf]
  rfl

/-- The [128] vector cast to a [128, 1] column reads, at (p, u), the vector at p: the same row-major position. -/
theorem col_cast_at {α : Type} (x : S128.Idx → α) (h : S128.ShapeCasts S128x1) (p : Fin 128) (u : Fin 1) :
    shapeCast S128x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The [1, 1] scalar broadcast to a [128, 1] column reads the scalar everywhere. -/
theorem bcast_scalar_at {α : Type} (v : S1x1.Idx → α) (h : S1x1.Broadcasts S128x1) (p : Fin 128) (u : Fin 1) :
    broadcastTo S128x1 v h (ix2 p u) = v (ix2 (0 : Fin 1) (0 : Fin 1)) := by
  refine broadcastTo_apply v h (ix2 p u) (ix2 (0 : Fin 1) (0 : Fin 1)) fun ax => ?_
  match ax with
  | ⟨0, _⟩ => show 0 = if (1 : Nat) = 1 then 0 else p.val; rw [if_pos rfl]
  | ⟨1, _⟩ => show 0 = if (1 : Nat) = 1 then 0 else u.val; rw [if_pos rfl]

/-- A [128, 1] column broadcast along the 8192 train rows reads, at (p, q), the column at row p. -/
theorem bcast_col_at {α : Type} (v : S128x1.Idx → α) (h : S128x1.Broadcasts S128x8192) (p : Fin 128) (q : Fin 8192) :
    broadcastTo S128x8192 v h (ix2 p q) = v (ix2 p (0 : Fin 1)) := by
  refine broadcastTo_apply v h (ix2 p q) (ix2 p (0 : Fin 1)) fun ax => ?_
  match ax with
  | ⟨0, _⟩ => show p.val = if (128 : Nat) = 1 then 0 else p.val; rw [if_neg (by decide)]
  | ⟨1, _⟩ => show 0 = if (1 : Nat) = 1 then 0 else q.val; rw [if_pos rfl]

/-- The epilogue's payload at (p, q): the row maximum plus the shift, times the exponential of the entry less the row
    maximum. -/
theorem epi_at (v17 : FVec Ideal S128x8192 .f32) (v18 : FVec Ideal S1x1 .f32) (p : Fin 128) (q : Fin 8192) :
    k0_pay4 (F := Ideal) v17 v18 (ix2 p q)
      = Cert.AA.result (fun j' => v17 (ix2 p j')) (v18 (ix2 (0 : Fin 1) (0 : Fin 1))) q := by
  unfold k0_pay4
  simp only [shapeCast_self]
  rw [mulf_apply, bcast_col_at, addf_apply, col_cast_at, bcast_scalar_at, rowmax_at]
  show _ * Ideal.exp (v17 (ix2 p q) - broadcastTo S128x8192 _ broadcasts_S128x1_S128x8192 (ix2 p q)) = _
  rw [bcast_col_at, col_cast_at, rowmax_at]
  rfl

/-! ## The output block -/

/-- THE OUTPUT BLOCK AT (p, q): `result` of row p of the match block, the shift, and q. -/
theorem out_at (x0 : Vec Ideal S1x1 .f32) (x1 x2 : Vec Ideal S128x256 .bf16) (x3 : Vec Ideal S8192x256 .bf16)
    (p : Fin 128) (q : Fin 8192) :
    Cert.KernelIdeal.Hand.out0_4 (F := Ideal) x0 x1 x2 x3 (ix2 p q)
      = Cert.AA.result (fun j' => (∑ k : Fin 256, x1 (ix2 p k) * x3 (ix2 j' k)) + (∑ k : Fin 256, x2 (ix2 p k) * x3 (ix2 j' k)))
          (x0 (ix2 0 0)) q := by
  unfold Cert.KernelIdeal.Hand.out0_4
  rw [epi_at]
  exact congrArg (fun a => Cert.AA.result a (x0 (ix2 0 0)) q) (funext fun j' => match_at x1 x2 x3 p j')

end Cert.KernelIdeal.PayAt

end
-- ==== Proof.KValue.lean ====
/-
  What the result array holds after the idealized kernel's run, as one function of the four arrays the pallas_call's input
  windows stage (the scalar shift, the two weighted test one-hot tables, the train one-hot table).
  Grid point `t` handles test rows 128 t … 128 t + 127: its two test blocks are those rows of the two tables, its train block
  and shift block are the whole arrays, and what it writes back is rows 128 t … 128 t + 127 of
      (i, j) ↦ result (j' ↦ ∑ₖ A1(i,k)·A3(j',k) + ∑ₖ A2(i,k)·A3(j',k)) (A0(0,0)) j.
  The 64 row blocks are disjoint and fill the [8192, 8192] result, so the array ends holding that function.
-/
import proofs.«167106_j53506702573581_2_alg».proof.Proof.FrameI
import proofs.«167106_j53506702573581_2_alg».proof.Proof.Spec
import proofs.«167106_j53506702573581_2_alg».proof.Proof.PayAt
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)
open Cert.KernelIdeal.PayAt (out_at)

/-- The match sum of test row `i` and train row `j'` as the two contractions of length 256 compute it. -/
def accAt (A1 A2 A3 : S8192x256.Idx → EReal) (i j' : Fin 8192) : EReal :=
  (∑ k : Fin 256, A1 (ix2 i k) * A3 (ix2 j' k)) + (∑ k : Fin 256, A2 (ix2 i k) * A3 (ix2 j' k))

/-- The result array as a function of the four staged arrays. -/
def Gk (A0 : S1x1.Idx → EReal) (A1 A2 A3 : S8192x256.Idx → EReal) : S8192x8192.Idx → EReal := fun idx =>
  Cert.AA.result (fun j' => accAt A1 A2 A3 ⟨(idx 0).val, idx2_lt0 idx⟩ j') (A0 (ix2 0 0)) ⟨(idx 1).val, idx2_lt1 idx⟩

/-- The printed index maps over the grid: the test tables' and the result's blocks move down the rows with the point,
    the shift's and the train table's stay at the origin. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 64 := by have := t.isLt; have hN : cfg0.N = 64 := N_0; omega

/-- The shift block is the shift array. -/
theorem blk0_at (c : Dev nD) (t : Fin cfg0.N) : iblk m c 0 t (ix2 0 0) = (V m c main_v70 : S1x1.Idx → EReal) (ix2 0 0) := by
  obtain ⟨e0, e1, -⟩ := idx_facts t
  unfold iblk
  show (V m c main_v70 : S1x1.Idx → EReal) (((cfg0.win 0).blk t).view.emb (ix2 0 0)) = _
  refine congrArg _ (funext fun a => Fin.ext ?_)
  match a with
  | ⟨0, _⟩ => show win0_0.index t (0 : Fin 2) * 1 + 1 * 0 = 0; omega
  | ⟨1, _⟩ => show win0_0.index t (1 : Fin 2) * 1 + 1 * 0 = 0; omega

/-- Row `p` of point `t`'s leading test block is row `128 t + p` of the table. -/
theorem blk1_at (c : Dev nD) (t : Fin cfg0.N) (p : Fin 128) (k : Fin 256) :
    iblk m c 1 t (ix2 p k) = (V m c main_v66 : S8192x256.Idx → EReal) (ix2 ⟨128 * t.val + p.val, by have := t_lt t; omega⟩ k) := by
  obtain ⟨-, -, e0, e1, -⟩ := idx_facts t
  unfold iblk
  show (V m c main_v66 : S8192x256.Idx → EReal) (((cfg0.win 1).blk t).view.emb (ix2 p k)) = _
  refine congrArg _ (funext fun a => Fin.ext ?_)
  match a with
  | ⟨0, _⟩ => show win0_1.index t (0 : Fin 2) * 128 + 1 * p.val = 128 * t.val + p.val; omega
  | ⟨1, _⟩ => show win0_1.index t (1 : Fin 2) * 256 + 1 * k.val = k.val; omega

/-- The same for the residual test block. -/
theorem blk2_at (c : Dev nD) (t : Fin cfg0.N) (p : Fin 128) (k : Fin 256) :
    iblk m c 2 t (ix2 p k) = (V m c main_v68 : S8192x256.Idx → EReal) (ix2 ⟨128 * t.val + p.val, by have := t_lt t; omega⟩ k) := by
  obtain ⟨-, -, -, -, e0, e1, -⟩ := idx_facts t
  unfold iblk
  show (V m c main_v68 : S8192x256.Idx → EReal) (((cfg0.win 2).blk t).view.emb (ix2 p k)) = _
  refine congrArg _ (funext fun a => Fin.ext ?_)
  match a with
  | ⟨0, _⟩ => show win0_2.index t (0 : Fin 2) * 128 + 1 * p.val = 128 * t.val + p.val; omega
  | ⟨1, _⟩ => show win0_2.index t (1 : Fin 2) * 256 + 1 * k.val = k.val; omega

/-- The train block is the whole train table. -/
theorem blk3_at (c : Dev nD) (t : Fin cfg0.N) (j' : Fin 8192) (k : Fin 256) :
    iblk m c 3 t (ix2 j' k) = (V m c main_v69 : S8192x256.Idx → EReal) (ix2 j' k) := by
  obtain ⟨-, -, -, -, -, -, e0, e1, -⟩ := idx_facts t
  unfold iblk
  show (V m c main_v69 : S8192x256.Idx → EReal) (((cfg0.win 3).blk t).view.emb (ix2 j' k)) = _
  refine congrArg _ (funext fun a => Fin.ext ?_)
  match a with
  | ⟨0, _⟩ => show win0_3.index t (0 : Fin 2) * 8192 + 1 * j'.val = j'.val; omega
  | ⟨1, _⟩ => show win0_3.index t (1 : Fin 2) * 256 + 1 * k.val = k.val; omega

/-- What point `t` writes back is block `t` of `Gk` of the staged arrays. -/
theorem flushed_eq (c : Dev nD) (t : Fin cfg0.N) :
    (dats m 0 c).flushed 4 t = ((cfg0.win 4).blk t).view.read (Elt Ideal)
      (Gk (V m c main_v70) (V m c main_v66) (V m c main_v68) (V m c main_v69)) := by
  show (cfg0.win 4).cut (grid0.coords t) ((dats m 0 c).after 4 t) = _
  rw [after0_4]
  funext y
  obtain ⟨p, q, rfl⟩ : ∃ (p : Fin 128) (q : Fin 8192), y = ix2 p q := ⟨y 0, y 1, eq_ix2 y⟩
  show out0_4 (iblk m c 0 t) (iblk m c 1 t) (iblk m c 2 t) (iblk m c 3 t) (ix2 p q)
    = Gk (V m c main_v70) (V m c main_v66) (V m c main_v68) (V m c main_v69) (((cfg0.win 4).blk t).view.emb (ix2 p q))
  refine (out_at _ _ _ _ p q).trans ?_
  obtain ⟨-, -, -, -, -, -, -, -, e0, e1⟩ := idx_facts t
  have hi : (⟨((((cfg0.win 4).blk t).view.emb (ix2 p q)) 0).val, idx2_lt0 _⟩ : Fin 8192) = ⟨128 * t.val + p.val, by have := t_lt t; omega⟩ :=
    Fin.ext (by show win0_4.index t (0 : Fin 2) * 128 + 1 * p.val = 128 * t.val + p.val; omega)
  have hj : (⟨((((cfg0.win 4).blk t).view.emb (ix2 p q)) 1).val, idx2_lt1 _⟩ : Fin 8192) = q :=
    Fin.ext (by show win0_4.index t (1 : Fin 2) * 8192 + 1 * q.val = q.val; omega)
  unfold Gk
  rw [hi, hj, blk0_at]
  refine congrArg (fun a => Cert.AA.result a _ q) (funext fun j' => ?_)
  unfold accAt
  simp only [blk1_at, blk2_at, blk3_at]

/-- An index of the result is in point `t`'s block iff each coordinate is in the block's range on its axis. -/
theorem mem_blk4 (t : Fin cfg0.N) (i : S8192x8192.Idx) :
    i ∈ ((cfg0.win 4).blk t).view.set ↔ ∀ a : Fin 2, win0_4.index t a * S128x8192.size a ≤ (i a).val ∧ (i a).val < win0_4.index t a * S128x8192.size a + S128x8192.size a := by
  show i ∈ ((View.whole main_v71).slice (win0_4.rect t)).set ↔ _
  rw [View.set_slice_whole, Rect.mem_set_unit]
  exact Iff.rfl

/-- The result array after the run: row `i` lies in the block of point `i / 128`. -/
theorem final (c : Dev nD) : (dats m 0 c).arrAt 4 cfg0.N = Gk (V m c main_v70) (V m c main_v66) (V m c main_v68) (V m c main_v69) :=
  (dats m 0 c).arrAt_eq_of_cover 4 _ (fun t _ => flushed_eq m c t) fun i => by
    have hi0 : (i 0).val < 8192 := (i 0).isLt
    have hi1 : (i 1).val < 8192 := (i 1).isLt
    have hN : cfg0.N = 64 := N_0
    obtain ⟨-, -, -, -, -, -, -, -, e0, e1⟩ := idx_facts ⟨(i 0).val / 128, by omega⟩
    refine ⟨⟨(i 0).val / 128, by omega⟩, flush0_4 _, (mem_blk4 _ i).mpr fun a => ?_⟩
    match a with
    | ⟨0, _⟩ => show win0_4.index _ (0 : Fin 2) * 128 ≤ (i 0).val ∧ (i 0).val < win0_4.index _ (0 : Fin 2) * 128 + 128
                rw [e0]; show (i 0).val / 128 * 128 ≤ (i 0).val ∧ (i 0).val < (i 0).val / 128 * 128 + 128; omega
    | ⟨1, _⟩ => show win0_4.index _ (1 : Fin 2) * 8192 ≤ (i 1).val ∧ (i 1).val < win0_4.index _ (1 : Fin 2) * 8192 + 8192
                rw [e1]; omega

end Cert.KernelIdeal.KValue

end
-- ==== Proof.HostValueI.lean ====
/-
  What the region finds in its four staged arrays, index by index on the extended reals.

  Before the region the program computes, from the bandwidths `h` (64 features), the test rows `X` and the train rows
  `Y` (8192 rows of 64 category levels each):
    · the scalar shift  ∑ f log (h f / 3) - ∑ f log (h f), each sum started from zero, as a 1 × 1 array;
    · the weight  w f = log (1 - h f) - log (h f / 3), split into a leading part (w through the narrow format and back)
      and a residual (w less the leading part, through the narrow format and back); on the extended reals a change of
      format is the identity, so the leading part is w and the residual is w - w;
    · two test tables of 256 columns: column 64 l + f holds [X i f = level l] times the leading, respectively the
      residual, weight of feature f — four blocks of 64 columns laid side by side;
    · one train table of 256 columns: column 64 l + f holds [Y j f = level l].
  Each array is first written as a closed term of the three arguments (`V70_eq`, `V66_eq`, `V68_eq`, `V69_eq`), then
  read at an index (`V_base`, `V_thi`, `V_tlo`, `V_s`) in the words of the shared specification.
-/
import proofs.«167106_j53506702573581_2_alg».proof.Proof.KBaseI
import proofs.«167106_j53506702573581_2_alg».proof.Proof.Spec
import Idealize.ShloMosaic.Lib.IdealHost
import Idealize.ShloMosaic.Lib.ValueIdx
import Idealize.ShloMosaic.Lib.Pipeline.Value
import Idealize.ShloMosaic.PureOps.Ideal.Laws

set_option maxRecDepth 16384

noncomputable section

namespace Cert.KernelIdeal.HostValue

open Cert.KernelIdeal Cert.KernelIdeal.Gen Cert.KernelIdeal.Hand
open Idealize.ShloMosaic Idealize.ShloMosaic.TcCoe Idealize.ShloMosaic.Tactic
open Idealize.ShloMosaic.StableHlo
open Idealize.SL.Sem

variable (m : (ℓ : Loc nD τ sig) → Buf (Elt Ideal) ℓ) (c : Dev nD)

/-! ## The four staged arrays as closed terms of the arguments -/

/-- The scalar shift as the host operations compute it. -/
def baseArr (h : FVec Ideal S64 .f32) : FVec Ideal S1x1 .f32 :=
  shapeCast S1x1
    (subf (Host.reduceAdd (F := Ideal) (Host.log (Host.divf (F := Ideal) h (broadcastInDim S64 ![] bcast_S_S64 (constant (F := Ideal) S_ .f32 0x40400000#32))))
              (constant (F := Ideal) S_ .f32 0x00000000#32) reducesTo_S64_S_d0 h_S_)
          (Host.reduceAdd (F := Ideal) (Host.log h) (constant (F := Ideal) S_ .f32 0x00000000#32) reducesTo_S64_S_d0 h_S_))
    shapeCasts_S_S1x1

/-- The weight array `log (1 - h) - log (h / 3)`. -/
def wArr (h : FVec Ideal S64 .f32) : FVec Ideal S64 .f32 :=
  subf (Host.log (subf (broadcastInDim S64 ![] bcast_S_S64 (constant (F := Ideal) S_ .f32 0x3F800000#32)) h))
       (Host.log (Host.divf (F := Ideal) h (broadcastInDim S64 ![] bcast_S_S64 (constant (F := Ideal) S_ .f32 0x40400000#32))))

/-- The leading part of the weight: the weight through the narrow format and back. -/
def wHi (h : FVec Ideal S64 .f32) : FVec Ideal S64 .f32 :=
  extf .f32 (truncf .bf16 (wArr h) bitsLt_bf16_f32) bitsLt_bf16_f32

/-- The residual part of the weight: the weight less its leading part, through the narrow format and back. -/
def wLo (h : FVec Ideal S64 .f32) : FVec Ideal S64 .f32 :=
  extf .f32 (truncf .bf16 (subf (wArr h) (extf .f32 (truncf .bf16 (wArr h) bitsLt_bf16_f32) bitsLt_bf16_f32)) bitsLt_bf16_f32) bitsLt_bf16_f32

/-- One level's indicator of the test rows, as an f32 array. -/
def xInd (X : FVec Ideal S8192x64 .f32) (b : BitVec 32) : FVec Ideal S8192x64 .f32 :=
  uitofp .f32 (cmpf .oeq X (broadcastInDim S8192x64 ![] bcast_S_S8192x64 (constant (F := Ideal) S_ .f32 b)))

/-- One level's indicator of the train rows, as a bf16 array. -/
def yInd (Y : FVec Ideal S8192x64 .f32) (b : BitVec 32) : FVec Ideal S8192x64 .bf16 :=
  uitofp .bf16 (cmpf .oeq Y (broadcastInDim S8192x64 ![] bcast_S_S8192x64 (constant (F := Ideal) S_ .f32 b)))

/-- A per-feature array laid along every row. -/
def rowB (W : FVec Ideal S64 .f32) : FVec Ideal S8192x64 .f32 :=
  broadcastInDim S8192x64 ![0, 1] bcast_S1x64_S8192x64_0_1 (broadcastInDim S1x64 ![1] bcast_S64_S1x64_1 W)

/-- The test table times a weight part: four level blocks side by side, then narrowed. -/
def tTab (W : FVec Ideal S64 .f32) (X : FVec Ideal S8192x64 .f32) : FVec Ideal S8192x256 .bf16 :=
  truncf .bf16 (concatenate S8192x256 1
    [⟨S8192x64, mulf (xInd X 0x00000000#32) (rowB W)⟩, ⟨S8192x64, mulf (xInd X 0x3F800000#32) (rowB W)⟩,
     ⟨S8192x64, mulf (xInd X 0x40000000#32) (rowB W)⟩, ⟨S8192x64, mulf (xInd X 0x40400000#32) (rowB W)⟩]
    concatenates_S8192x64_S8192x64_S8192x64_S8192x64_S8192x256_d1) bitsLt_bf16_f32

/-- The train table: four level blocks side by side. -/
def sTab (Y : FVec Ideal S8192x64 .f32) : FVec Ideal S8192x256 .bf16 :=
  concatenate S8192x256 1
    [⟨S8192x64, yInd Y 0x00000000#32⟩, ⟨S8192x64, yInd Y 0x3F800000#32⟩,
     ⟨S8192x64, yInd Y 0x40000000#32⟩, ⟨S8192x64, yInd Y 0x40400000#32⟩]
    concatenates_S8192x64_S8192x64_S8192x64_S8192x64_S8192x256_d1

set_option maxHeartbeats 4000000 in
theorem V70_eq : (V m c main_v70 : S1x1.Idx → EReal) = baseArr (m ((c : Thread nD τ).loc main_arg0)) := by
  dsimp only [V, hostOps0]
  after_results_simp
  rfl

set_option maxHeartbeats 40000000 in
theorem V69_eq : (V m c main_v69 : S8192x256.Idx → EReal) = sTab (m ((c : Thread nD τ).loc main_arg2)) := by
  dsimp only [V, hostOps0]
  after_results_simp
  rfl

set_option maxHeartbeats 40000000 in
theorem V66_eq : (V m c main_v66 : S8192x256.Idx → EReal)
    = tTab (wHi (m ((c : Thread nD τ).loc main_arg0))) (m ((c : Thread nD τ).loc main_arg1)) := by
  dsimp only [V, hostOps0]
  after_results_simp
  rfl

set_option maxHeartbeats 40000000 in
theorem V68_eq : (V m c main_v68 : S8192x256.Idx → EReal)
    = tTab (wLo (m ((c : Thread nD τ).loc main_arg0))) (m ((c : Thread nD τ).loc main_arg1)) := by
  dsimp only [V, hostOps0]
  after_results_simp
  rfl

open Idealize.ShloMosaic.ValueIdx

/-! ## The arrays read at an index -/

/-- A rank-1 index set is its coordinate range … -/
def idxEquiv1 {n : Nat} : (⟨1, ![n]⟩ : Shape).Idx ≃ Fin n where
  toFun i := i 0
  invFun := ix1
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem baseArr_apply (h : FVec Ideal S64 .f32) (y : S1x1.Idx) :
    baseArr h y = Cert.AA.baseOf (fun f => h (ix1 f)) := by
  unfold baseArr
  have h0 : (S_.rowMajor ix0).val = 0 := by
    have := (S_.rowMajor ix0).isLt; simp [Shape.numel] at this; omega
  rw [shapeCast_apply _ _ y ix0 (by
    have y0 := idx2_lt0 y; have y1 := idx2_lt1 y
    rw [Shape.rowMajor_val_two, h0]
    show 0 = (y 0).val * 1 + (y 1).val
    omega)]
  show Ideal.hostReduceAdd reducesTo_S64_S_d0 _ _ ix0 - Ideal.hostReduceAdd reducesTo_S64_S_d0 _ _ ix0 = _
  rw [Ideal.hostReduceAdd_total _ (fun b => b.elim0), Ideal.hostReduceAdd_total _ (fun b => b.elim0)]
  rw [sum_idx1, sum_idx1]
  rfl

/-- Four blocks of 64 columns laid side by side, read at column `64 l + f`: block `l` at column `f`. -/
theorem concat4_apply {α : Type} (x : Fin 4 → S8192x64.Idx → α)
    (hc : Shape.Concatenates ([(⟨S8192x64, x 0⟩ : (s : Shape) × (s.Idx → α)), ⟨S8192x64, x 1⟩, ⟨S8192x64, x 2⟩, ⟨S8192x64, x 3⟩].map (·.1)) S8192x256 1)
    (i : Fin 8192) (l : Fin 4) (f : Fin 64) :
    concatenate S8192x256 1 [⟨S8192x64, x 0⟩, ⟨S8192x64, x 1⟩, ⟨S8192x64, x 2⟩, ⟨S8192x64, x 3⟩] hc
        (ix2 i (⟨64 * l.val + f.val, by omega⟩ : Fin 256)) = x l (ix2 i f) := by
  have hf := f.isLt
  have hi : ∀ b : Fin S8192x64.rank, b.cast (rfl : S8192x64.rank = S8192x256.rank) ≠ (1 : Fin S8192x256.rank) →
      ((ix2 i f : S8192x64.Idx) b).val = ((ix2 i (⟨64 * l.val + f.val, by omega⟩ : Fin 256) : S8192x256.Idx) (b.cast rfl)).val := by
    intro b hb
    match b with
    | ⟨0, _⟩ => rfl
    | ⟨1, _⟩ => exact absurd rfl hb
  fin_cases l
  · exact concatenate_apply_piece 1 _ hc _ 0 (by simp) S8192x64 (x 0) rfl rfl 0 rfl (ix2 i f) hi (by show 0 + f.val = 64 * 0 + f.val; omega)
  · exact concatenate_apply_piece 1 _ hc _ 1 (by simp) S8192x64 (x 1) rfl rfl 64 rfl (ix2 i f) hi (by show 64 + f.val = 64 * 1 + f.val; omega)
  · exact concatenate_apply_piece 1 _ hc _ 2 (by simp) S8192x64 (x 2) rfl rfl 128 rfl (ix2 i f) hi (by show 128 + f.val = 64 * 2 + f.val; omega)
  · exact concatenate_apply_piece 1 _ hc _ 3 (by simp) S8192x64 (x 3) rfl rfl 192 rfl (ix2 i f) hi (by show 192 + f.val = 64 * 3 + f.val; omega)

/-- The same at a column `k` of the 256: block `k / 64` at column `k % 64`. -/
theorem concat4_apply_col {α : Type} (x : Fin 4 → S8192x64.Idx → α)
    (hc : Shape.Concatenates ([(⟨S8192x64, x 0⟩ : (s : Shape) × (s.Idx → α)), ⟨S8192x64, x 1⟩, ⟨S8192x64, x 2⟩, ⟨S8192x64, x 3⟩].map (·.1)) S8192x256 1)
    (i : Fin 8192) (k : Fin 256) :
    concatenate S8192x256 1 [⟨S8192x64, x 0⟩, ⟨S8192x64, x 1⟩, ⟨S8192x64, x 2⟩, ⟨S8192x64, x 3⟩] hc (ix2 i k)
      = x ⟨k.val / 64, by omega⟩ (ix2 i ⟨k.val % 64, by omega⟩) := by
  have e : k = (⟨64 * (⟨k.val / 64, by omega⟩ : Fin 4).val + (⟨k.val % 64, by omega⟩ : Fin 64).val, by simp; omega⟩ : Fin 256) :=
    Fin.ext (by simp; omega)
  exact (congrArg (fun kk => concatenate S8192x256 1 [⟨S8192x64, x 0⟩, ⟨S8192x64, x 1⟩, ⟨S8192x64, x 2⟩, ⟨S8192x64, x 3⟩] hc (ix2 i kk)) e).trans
    (concat4_apply x hc i ⟨k.val / 64, by omega⟩ ⟨k.val % 64, by omega⟩)

theorem yInd_apply (Y : FVec Ideal S8192x64 .f32) (l : Fin 4) (j : S8192x64.Idx) :
    yInd Y (Cert.AA.lvlBits l) j = Cert.AA.ind l (Y j) := rfl

theorem xInd_apply (X : FVec Ideal S8192x64 .f32) (l : Fin 4) (j : S8192x64.Idx) :
    xInd X (Cert.AA.lvlBits l) j = Cert.AA.ind l (X j) := rfl

theorem wArr_apply (h : FVec Ideal S64 .f32) (f : S64.Idx) : wArr h f = Cert.AA.wOf (h f) := rfl

theorem wHi_apply (h : FVec Ideal S64 .f32) (f : S64.Idx) : wHi h f = Cert.AA.wOf (h f) := rfl

theorem wLo_apply (h : FVec Ideal S64 .f32) (f : S64.Idx) : wLo h f = Cert.AA.wOf (h f) - Cert.AA.wOf (h f) := rfl

theorem rowB_apply (W : FVec Ideal S64 .f32) (i : Fin 8192) (f : Fin 64) : rowB W (ix2 i f) = W (ix1 f) := by
  unfold rowB
  rw [broadcastInDim_apply _ _ _ (ix2 i f) (ix2 (0 : Fin 1) f) (by
        intro a
        match a with
        | ⟨0, _⟩ => rfl
        | ⟨1, _⟩ => rfl),
      broadcastInDim_apply _ _ _ (ix2 (0 : Fin 1) f) (ix1 f) (by
        intro a
        match a with
        | ⟨0, _⟩ => rfl)]

theorem sTab_apply (Y : FVec Ideal S8192x64 .f32) (j : Fin 8192) (k : Fin 256) :
    sTab Y (ix2 j k) = Cert.AA.ind ⟨k.val / 64, by omega⟩ (Y (ix2 j ⟨k.val % 64, by omega⟩)) := by
  unfold sTab
  exact (concat4_apply_col (fun l => yInd Y (Cert.AA.lvlBits l)) _ j k).trans (yInd_apply Y _ _)

theorem tTab_apply (W : FVec Ideal S64 .f32) (X : FVec Ideal S8192x64 .f32) (i : Fin 8192) (k : Fin 256) :
    tTab W X (ix2 i k)
      = Cert.AA.ind ⟨k.val / 64, by omega⟩ (X (ix2 i ⟨k.val % 64, by omega⟩)) * W (ix1 ⟨k.val % 64, by omega⟩) := by
  unfold tTab
  rw [truncf_apply]
  refine (concat4_apply_col (fun l => mulf (xInd X (Cert.AA.lvlBits l)) (rowB W))
    concatenates_S8192x64_S8192x64_S8192x64_S8192x64_S8192x256_d1 i k).trans ?_
  show xInd X _ _ * rowB W _ = _
  rw [rowB_apply, xInd_apply]

/-! ## What the region finds in its four staged arrays -/

/-- The scalar window holds the shift. -/
theorem V_base (y : S1x1.Idx) :
    (V m c main_v70 : S1x1.Idx → EReal) y
      = Cert.AA.baseOf (fun f => (m ((c : Thread nD τ).loc main_arg0) : S64.Idx → EReal) (ValueIdx.ix1 f)) := by
  rw [V70_eq]; exact baseArr_apply _ y

/-- The train table at row `j`, column `k`: the indicator of level `k / 64` at feature `k % 64`. -/
theorem V_s (j : Fin 8192) (k : Fin 256) :
    (V m c main_v69 : S8192x256.Idx → EReal) (ValueIdx.ix2 j k)
      = Cert.AA.ind ⟨k.val / 64, by omega⟩
          ((m ((c : Thread nD τ).loc main_arg2) : S8192x64.Idx → EReal) (ValueIdx.ix2 j ⟨k.val % 64, by omega⟩)) := by
  rw [V69_eq]; exact sTab_apply _ j k

/-- The leading test table at row `i`, column `k`: the indicator times the weight. -/
theorem V_thi (i : Fin 8192) (k : Fin 256) :
    (V m c main_v66 : S8192x256.Idx → EReal) (ValueIdx.ix2 i k)
      = Cert.AA.ind ⟨k.val / 64, by omega⟩
          ((m ((c : Thread nD τ).loc main_arg1) : S8192x64.Idx → EReal) (ValueIdx.ix2 i ⟨k.val % 64, by omega⟩))
        * Cert.AA.wOf ((m ((c : Thread nD τ).loc main_arg0) : S64.Idx → EReal) (ValueIdx.ix1 ⟨k.val % 64, by omega⟩)) := by
  rw [V66_eq, tTab_apply, wHi_apply]

/-- The residual test table at row `i`, column `k`: the indicator times the weight less itself. -/
theorem V_tlo (i : Fin 8192) (k : Fin 256) :
    (V m c main_v68 : S8192x256.Idx → EReal) (ValueIdx.ix2 i k)
      = Cert.AA.ind ⟨k.val / 64, by omega⟩
          ((m ((c : Thread nD τ).loc main_arg1) : S8192x64.Idx → EReal) (ValueIdx.ix2 i ⟨k.val % 64, by omega⟩))
        * (Cert.AA.wOf ((m ((c : Thread nD τ).loc main_arg0) : S64.Idx → EReal) (ValueIdx.ix1 ⟨k.val % 64, by omega⟩))
            - Cert.AA.wOf ((m ((c : Thread nD τ).loc main_arg0) : S64.Idx → EReal) (ValueIdx.ix1 ⟨k.val % 64, by omega⟩))) := by
  rw [V68_eq, tTab_apply, wLo_apply]

end Cert.KernelIdeal.HostValue

end
-- ==== Proof.SpecLaws.lean ====
/-
  Laws of the specification, on the extended reals.

  * Adding a real shift to every entry of a row commutes with the row maximum, and cancels in a difference, so the
    result with the shift inside the maximum equals the result with the shift outside it.
  * The level-by-level accumulation of the match sum, each level onto a zero, is the match sum.
  * The accumulation along one contraction of length 256 (column `64 l + f` is level `l`, feature `f`) is the match
    sum as well, once the residual weight `w - w` is zero, which it is when every weight is a real number.
  * The weight of a bandwidth strictly between 0 and 1 is a real number, and so is the common shift of positive real
    bandwidths.
-/
import proofs.«167106_j53506702573581_2_alg».proof.Proof.Spec

noncomputable section

namespace Cert.AA

open Idealize.ShloMosaic

/-! ## The real shift and the row maximum -/

/-- The maximum from `-∞` of a family shifted by a real `b` is the maximum of the family, shifted by `b`:
    `-∞ + b = -∞`, and `x ↦ x + b` is monotone, so it commutes with `max`. -/
theorem fold_max_add_coe (s : Finset (Fin 8192)) (a : Fin 8192 → EReal) (b : ℝ) :
    s.fold max ⊥ (fun j => a j + (b : EReal)) = s.fold max ⊥ a + (b : EReal) := by
  induction s using Finset.induction_on with
  | empty => simp only [Finset.fold_empty, EReal.bot_add]
  | insert j s hj ih =>
    rw [Finset.fold_insert hj, Finset.fold_insert hj, ih, max_add_add_right]

/-- A real number less itself is zero in the extended reals. -/
theorem coe_add_neg_coe (b : ℝ) : (b : EReal) + -(b : EReal) = 0 := by
  rw [← EReal.coe_neg, ← EReal.coe_add, add_neg_cancel, EReal.coe_zero]

/-- A common real shift cancels in a difference of extended reals (no side condition on `x`, `y`: the negation of
    `y + b` is `-y - b` because `b` is neither infinity). -/
theorem add_coe_sub_add_coe (x y : EReal) (b : ℝ) : (x + (b : EReal)) - (y + (b : EReal)) = x - y := by
  rw [sub_eq_add_neg, EReal.neg_add (Or.inr (EReal.coe_ne_top b)) (Or.inr (EReal.coe_ne_bot b)),
    sub_eq_add_neg (-y), add_add_add_comm, coe_add_neg_coe, add_zero, ← sub_eq_add_neg]

/-- With a real shift `b`, the result with the shift inside the maximum is the result with the shift outside. -/
theorem refResult_eq_result (a : Fin 8192 → EReal) (b : ℝ) (j : Fin 8192) :
    refResult a (b : EReal) j = result a (b : EReal) j := by
  unfold refResult result rowMax
  rw [fold_max_add_coe, add_coe_sub_add_coe]

/-! ## The two accumulations of the match sum -/

/-- Level by level, each product onto a zero and the four added in turn to a zero: the match sum. -/
theorem refMatch_eq_matchSum (h x y : Fin 64 → EReal) : refMatch h x y = matchSum h x y := by
  unfold refMatch matchSum
  rw [Ideal.ofBits_zero_f32, Fin.sum_univ_four]
  simp only [zero_add]

/-- A sum over the 256 columns `k = 64 l + f`, read through quotient and remainder by 64, is the double sum over the
    4 levels and the 64 features. -/
theorem sum_fin256 (g : Fin 4 → Fin 64 → EReal) :
    ∑ k : Fin 256, g ⟨k.val / 64, by omega⟩ ⟨k.val % 64, by omega⟩ = ∑ l : Fin 4, ∑ f : Fin 64, g l f := by
  rw [← Fintype.sum_prod_type (f := fun p : Fin 4 × Fin 64 => g p.1 p.2)]
  exact Equiv.sum_comp (finProdFinEquiv (m := 4) (n := 64)).symm (fun p : Fin 4 × Fin 64 => g p.1 p.2)

/-- When every weight is a real number the residual `w - w` is zero, the second contraction vanishes, and the first,
    re-indexed by level and feature, is the match sum. -/
theorem kerMatch_eq_matchSum (h x y : Fin 64 → EReal) (hw : ∀ f, ∃ r : ℝ, wOf (h f) = (r : EReal)) :
    kerMatch h x y = matchSum h x y := by
  unfold kerMatch matchSum
  have hz : ∀ f : Fin 64, wOf (h f) - wOf (h f) = 0 := fun f => by
    obtain ⟨r, hr⟩ := hw f
    rw [hr, ← EReal.coe_sub, sub_self, EReal.coe_zero]
  have h2 : ∑ k : Fin 256, (ind ⟨k.val / 64, by omega⟩ (x ⟨k.val % 64, by omega⟩)
            * (wOf (h ⟨k.val % 64, by omega⟩) - wOf (h ⟨k.val % 64, by omega⟩)))
          * ind ⟨k.val / 64, by omega⟩ (y ⟨k.val % 64, by omega⟩) = 0 :=
    Finset.sum_eq_zero fun k _ => by rw [hz, mul_zero, zero_mul]
  rw [h2, Ideal.ofBits_zero_f32, zero_add, zero_add, add_zero]
  exact sum_fin256 (fun l f => (ind l (x f) * wOf (h f)) * ind l (y f))

/-! ## The weight and the shift are real numbers -/

/-- The f32 word `0x40400000` denotes the real number 3. -/
theorem ofBits_three_f32 : Ideal.ofBits .f32 0x40400000#32 = ((3 : ℝ) : EReal) := by
  simp [Ideal.ofBits, Ideal.ieee, -EReal.coe_mul]; norm_num

/-- The logarithm of a positive real is the real logarithm. -/
theorem log_coe_pos (r : ℝ) (hr : 0 < r) : Ideal.log (r : EReal) = ((Real.log r : ℝ) : EReal) := by
  show (if r ≤ 0 then (⊥ : EReal) else ((Real.log r : ℝ) : EReal)) = _
  rw [if_neg (not_le.mpr hr)]

/-- A real divided by 3 is the real quotient: 3 is not zero, and the inverse and the product of reals are real. -/
theorem div_coe_three (r : ℝ) : Ideal.div (r : EReal) ((3 : ℝ) : EReal) = ((r / 3 : ℝ) : EReal) := by
  unfold Ideal.div
  rw [if_neg (by exact_mod_cast (by norm_num : (3 : ℝ) ≠ 0)), ← EReal.coe_inv, ← EReal.coe_mul, div_eq_mul_inv]

/-- A finite sum of real numbers, taken in the extended reals, is the real sum. -/
theorem sum_coe {ι : Type} (s : Finset ι) (g : ι → ℝ) :
    ∑ i ∈ s, ((g i : ℝ) : EReal) = ((∑ i ∈ s, g i : ℝ) : EReal) := by
  classical
  induction s using Finset.induction_on with
  | empty => simp only [Finset.sum_empty, EReal.coe_zero]
  | insert i s hi ih => rw [Finset.sum_insert hi, Finset.sum_insert hi, ih, EReal.coe_add]

/-- For a bandwidth `0 < r < 1` both `1 - r` and `r / 3` are positive reals, so the weight
    `log (1 - r) - log (r / 3)` is a real number. -/
theorem wOf_real (h : EReal) (r : ℝ) (hh : h = (r : EReal)) (h0 : 0 < r) (h1 : r < 1) :
    ∃ s : ℝ, wOf h = (s : EReal) := by
  subst hh
  refine ⟨Real.log (1 - r) - Real.log (r / 3), ?_⟩
  unfold wOf
  rw [Ideal.ofBits_one_f32, ofBits_three_f32, div_coe_three,
    show (1 : EReal) - (r : EReal) = ((1 - r : ℝ) : EReal) by rw [EReal.coe_sub, EReal.coe_one],
    log_coe_pos _ (sub_pos.mpr h1), log_coe_pos _ (div_pos h0 (by norm_num)), ← EReal.coe_sub]

/-- For positive real bandwidths every `log (h f / 3)` and every `log (h f)` is real, so the shift, a difference of
    two finite sums of reals, is a real number. -/
theorem baseOf_real (h : Fin 64 → EReal) (hr : ∀ f, ∃ r : ℝ, h f = (r : EReal) ∧ 0 < r) :
    ∃ s : ℝ, baseOf h = (s : EReal) := by
  choose r hr hpos using hr
  refine ⟨(∑ f, Real.log (r f / 3)) - ∑ f, Real.log (r f), ?_⟩
  unfold baseOf
  have e1 : ∀ f, Ideal.log (Ideal.div (h f) (Ideal.ofBits .f32 0x40400000#32))
      = ((Real.log (r f / 3) : ℝ) : EReal) := fun f => by
    rw [hr f, ofBits_three_f32, div_coe_three, log_coe_pos _ (div_pos (hpos f) (by norm_num))]
  have e2 : ∀ f, Ideal.log (h f) = ((Real.log (r f) : ℝ) : EReal) := fun f => by
    rw [hr f, log_coe_pos _ (hpos f)]
  rw [Finset.sum_congr rfl (fun f _ => e1 f), Finset.sum_congr rfl (fun f _ => e2 f),
    Ideal.ofBits_zero_f32, zero_add, zero_add, sum_coe, sum_coe, ← EReal.coe_sub]

end Cert.AA

end
-- ==== Proof.SpecArr.lean ====
/-
  The result as a whole [8192, 8192] array: `G` of the bandwidths, the test rows and the train rows, read at an
  array index through its two coordinates.
-/
import proofs.«167106_j53506702573581_2_alg».proof.Proof.Spec
import Idealize.ShloMosaic.Lib.ValueIdx

noncomputable section

namespace Cert.AA

open Idealize.ShloMosaic Idealize.ShloMosaic.ValueIdx

/-- The result array of bandwidths `h` [64], test rows `X` [8192, 64] and train rows `Y` [8192, 64]. -/
def Garr (h : (⟨1, ![64]⟩ : Shape).Idx → EReal) (X Y : (⟨2, ![8192, 64]⟩ : Shape).Idx → EReal) :
    (⟨2, ![8192, 8192]⟩ : Shape).Idx → EReal := fun idx =>
  G (fun f => h (ix1 f)) (fun i f => X (ix2 i f)) (fun j f => Y (ix2 j f)) ⟨(idx 0).val, idx2_lt0 idx⟩ ⟨(idx 1).val, idx2_lt1 idx⟩

theorem Garr_ix2 (h : (⟨1, ![64]⟩ : Shape).Idx → EReal) (X Y : (⟨2, ![8192, 64]⟩ : Shape).Idx → EReal) (i j : Fin 8192) :
    Garr h X Y (ix2 i j) = G (fun f => h (ix1 f)) (fun i f => X (ix2 i f)) (fun j f => Y (ix2 j f)) i j := rfl

end Cert.AA

end
-- ==== Proof.KBridge.lean ====
/-
  The kernel's result array is `G` of the three arguments: the four staged arrays are the shift, the test one-hot table
  weighted by `w` and by the residual `w - w`, and the train one-hot table, columns `64·level + feature`; with every
  weight a real number the residual vanishes and the contraction of length 256 is the double sum over levels and features.
-/
import proofs.«167106_j53506702573581_2_alg».proof.Proof.KValue
import proofs.«167106_j53506702573581_2_alg».proof.Proof.HostValueI
import proofs.«167106_j53506702573581_2_alg».proof.Proof.SpecLaws
import proofs.«167106_j53506702573581_2_alg».proof.Proof.SpecArr

noncomputable section

namespace Cert.KernelIdeal.KBridge

open Cert.KernelIdeal Cert.KernelIdeal.Gen Cert.KernelIdeal.Hand Cert.KernelIdeal.KValue Cert.KernelIdeal.HostValue
open Idealize.ShloMosaic Idealize.ShloMosaic.TcCoe Idealize.ShloMosaic.ValueIdx
open Idealize.SL Idealize.SL.Sem

variable (m : (ℓ : Loc nD τ sig) → Buf (Elt Ideal) ℓ)

/-- With real weights, the function of the staged arrays is `G` of the arguments. -/
theorem kernel_is_G (c : Dev nD)
    (hw : ∀ f : Fin 64, ∃ s : ℝ, Cert.AA.wOf ((m ((c : Thread nD τ).loc main_arg0) : S64.Idx → EReal) (ix1 f)) = (s : EReal)) :
    Gk (V m c main_v70) (V m c main_v66) (V m c main_v68) (V m c main_v69)
      = Cert.AA.Garr (m ((c : Thread nD τ).loc main_arg0) : S64.Idx → EReal) (m ((c : Thread nD τ).loc main_arg1) : S8192x64.Idx → EReal)
          (m ((c : Thread nD τ).loc main_arg2) : S8192x64.Idx → EReal) := by
  funext idx
  obtain ⟨i, j, rfl⟩ : ∃ (i j : Fin 8192), idx = ix2 i j := ⟨idx 0, idx 1, eq_ix2 idx⟩
  rw [Cert.AA.Garr_ix2]
  show Cert.AA.result (fun j' => accAt (V m c main_v66) (V m c main_v68) (V m c main_v69) i j') ((V m c main_v70 : S1x1.Idx → EReal) (ix2 0 0)) j = _
  rw [V_base]
  unfold Cert.AA.G
  refine congrArg (fun a => Cert.AA.result a _ j) (funext fun j' => ?_)
  rw [← Cert.AA.kerMatch_eq_matchSum _ _ _ hw]
  unfold accAt Cert.AA.kerMatch
  simp only [Ideal.ofBits_zero_f32, zero_add]
  exact congrArg₂ (· + ·)
    (Finset.sum_congr rfl fun k _ => congrArg₂ (· * ·) (V_thi m c i k) (V_s m c j' k))
    (Finset.sum_congr rfl fun k _ => congrArg₂ (· * ·) (V_tlo m c i k) (V_s m c j' k))

end Cert.KernelIdeal.KBridge

end
-- ==== Proof.RefValue.lean ====
/-
  The reference program's result read index by index.

  Every stage of the reference is read at one index from the stages before it, down to the three argument arrays:
  the weight vector at a feature is `wOf` of the bandwidth there; the scalar shift is `baseOf`; each level's matrix
  product at (i, j) is the sum over the 64 features of [X i f = level] · w f · [Y j f = level] (the right operand is the
  transposed train indicator, so its (f, j) entry is the indicator of train row j at feature f); the four products are
  added one after the other onto a zero matrix; the shift is added; the row maximum at test row i is the fold of `max`
  from -∞ over the 8192 train rows; and the result at (i, j) is that maximum times the exponential of the entry less the
  maximum. Put together, the result at (i, j) is `refResult` of the row of match sums, the shift, and j.
-/
import proofs.«167106_j53506702573581_2_alg».proof.Proof.Spec
import proofs.«167106_j53506702573581_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx

/-- The weight vector at feature `f`: `log (1 - h f) - log (h f / 3)`. -/
theorem w_at (h : FVec Ideal S64 .f32) (f : Fin 64) :
    val_main_v6 (F := Ideal) h (ix1 f) = Cert.AA.wOf (h (ix1 f)) := by
  rw [val_main_v6_apply, val_main_v2_apply, val_main_v1_apply, val_main_v0_apply, val_main_cst_apply,
    val_main_v5_apply, val_main_v4_apply, val_main_v3_apply, val_main_cst_0_apply]
  rfl

/-- A rank-1 index set of extent 64 is its coordinate range. -/
def idxEquiv1 : S64.Idx ≃ Fin 64 where
  toFun i := i 0
  invFun a := ix1 a
  left_inv i := (eq_ix1 i).symm
  right_inv _ := rfl

theorem sum_idx1 (g : S64.Idx → EReal) : ∑ i, g i = ∑ f : Fin 64, g (ix1 f) := by
  rw [← Equiv.sum_comp idxEquiv1.symm g]
  rfl

/-- The scalar shift: the sum of `log (h f / 3)` less the sum of `log (h f)`. -/
theorem base_at (h : FVec Ideal S64 .f32) (i : S_.Idx) :
    val_main_v10 (F := Ideal) h i = Cert.AA.baseOf (fun f => h (ix1 f)) := by
  rw [val_main_v10_apply, val_main_v7_apply, val_main_v9_apply, val_main_cst_1_apply, val_main_cst_2_apply,
    sum_idx1, sum_idx1]
  simp only [val_main_v5_apply, val_main_v4_apply, val_main_v3_apply, val_main_cst_0_apply, val_main_v8_apply]
  rfl

/-- The f32 word of -∞ is the bottom of the extended reals. -/
theorem ofBits_neg_inf : Ideal.ofBits .f32 0xFF800000#32 = (⊥ : EReal) := by
  simp [Ideal.ofBits, Ideal.ieee]

/-- The shape fact of the reduction over the train axis, in the form that names the index with a coordinate inserted. -/
theorem reduces_rows : S8192x8192.Reduces [1] S8192 := by decide

/-- The maximum-reduce over the train axis of any [8192, 8192] array, from the -∞ word, at test row `i`: the fold of
    `max` from -∞ over the 8192 entries of row `i`. -/
theorem rowmax_read (y : FVec Ideal S8192x8192 .f32) (i : Fin 8192) :
    Host.reduce FloatOps.maximumf y (val_main_cst_12 (F := Ideal)) reducesTo_S8192x8192_S8192_d1 h_S_ (ix1 i)
      = Cert.AA.rowMax (fun j' => y (ix2 i j')) := by
  rw [Host.reduce_eq_fold_single FloatOps.maximumf y _ reducesTo_S8192x8192_S8192_d1 reduces_rows h_S_ (ix1 i),
    val_main_cst_12_apply]
  have e : y ∘ reduces_rows.lift (ix1 i) = fun j' : Fin 8192 => y (ix2 i j') := by
    funext j'
    refine congrArg y (funext fun c => Fin.ext ?_)
    match c with
    | ⟨0, _⟩ => rfl
    | ⟨1, _⟩ => rfl
  rw [e]
  show (Finset.univ : Finset (Fin 8192)).fold max (Ideal.ofBits .f32 0xFF800000#32) _ = _
  rw [ofBits_neg_inf]
  rfl

/-- Level 0's matrix product at (i, j): the sum over the features of [X i f = 0] · w f · [Y j f = 0]. -/
theorem level0_at (h : FVec Ideal S64 .f32) (X Y : FVec Ideal S8192x64 .f32) (i j : Fin 8192) :
    val_main_v22 (F := Ideal) h X Y (ix2 i j)
      = ∑ f : Fin 64, (Cert.AA.ind 0 (X (ix2 i f)) * Cert.AA.wOf (h (ix1 f))) * Cert.AA.ind 0 (Y (ix2 j f)) := by
  rw [val_main_v22_apply]
  refine Finset.sum_congr rfl fun f _ => ?_
  have el : lidx_main_v22 (ix2 i j) f = ix2 i f :=
    funext fun a => Fin.ext (by match a with | ⟨0, _⟩ => rfl | ⟨1, _⟩ => rfl)
  have er : idx_main_v21 (ridx_main_v22 (ix2 i j) f) = ix2 j f :=
    funext fun a => Fin.ext (by match a with | ⟨0, _⟩ => rfl | ⟨1, _⟩ => rfl)
  have ew : idx_main_v15 (idx_main_v16 (ix2 i f)) = ix1 f :=
    funext fun a => Fin.ext (by match a with | ⟨0, _⟩ => rfl)
  rw [el, val_main_v17_apply, val_main_v14_apply, val_main_v13_apply, val_main_v12_apply, val_main_cst_4_apply,
    val_main_v16_apply, val_main_v15_apply, ew, w_at,
    val_main_v21_apply, er, val_main_v20_apply, val_main_v19_apply, val_main_v18_apply, val_main_cst_5_apply]
  rfl

/-- Level 1's matrix product at (i, j): the sum over the features of [X i f = 1] · w f · [Y j f = 1]. -/
theorem level1_at (h : FVec Ideal S64 .f32) (X Y : FVec Ideal S8192x64 .f32) (i j : Fin 8192) :
    val_main_v34 (F := Ideal) h X Y (ix2 i j)
      = ∑ f : Fin 64, (Cert.AA.ind 1 (X (ix2 i f)) * Cert.AA.wOf (h (ix1 f))) * Cert.AA.ind 1 (Y (ix2 j f)) := by
  rw [val_main_v34_apply]
  refine Finset.sum_congr rfl fun f _ => ?_
  have el : lidx_main_v34 (ix2 i j) f = ix2 i f :=
    funext fun a => Fin.ext (by match a with | ⟨0, _⟩ => rfl | ⟨1, _⟩ => rfl)
  have er : idx_main_v33 (ridx_main_v34 (ix2 i j) f) = ix2 j f :=
    funext fun a => Fin.ext (by match a with | ⟨0, _⟩ => rfl | ⟨1, _⟩ => rfl)
  have ew : idx_main_v27 (idx_main_v28 (ix2 i f)) = ix1 f :=
    funext fun a => Fin.ext (by match a with | ⟨0, _⟩ => rfl)
  rw [el, val_main_v29_apply, val_main_v26_apply, val_main_v25_apply, val_main_v24_apply, val_main_cst_6_apply,
    val_main_v28_apply, val_main_v27_apply, ew, w_at,
    val_main_v33_apply, er, val_main_v32_apply, val_main_v31_apply, val_main_v30_apply, val_main_cst_7_apply]
  rfl

/-- Level 2's matrix product at (i, j): the sum over the features of [X i f = 2] · w f · [Y j f = 2]. -/
theorem level2_at (h : FVec Ideal S64 .f32) (X Y : FVec Ideal S8192x64 .f32) (i j : Fin 8192) :
    val_main_v46 (F := Ideal) h X Y (ix2 i j)
      = ∑ f : Fin 64, (Cert.AA.ind 2 (X (ix2 i f)) * Cert.AA.wOf (h (ix1 f))) * Cert.AA.ind 2 (Y (ix2 j f)) := by
  rw [val_main_v46_apply]
  refine Finset.sum_congr rfl fun f _ => ?_
  have el : lidx_main_v46 (ix2 i j) f = ix2 i f :=
    funext fun a => Fin.ext (by match a with | ⟨0, _⟩ => rfl | ⟨1, _⟩ => rfl)
  have er : idx_main_v45 (ridx_main_v46 (ix2 i j) f) = ix2 j f :=
    funext fun a => Fin.ext (by match a with | ⟨0, _⟩ => rfl | ⟨1, _⟩ => rfl)
  have ew : idx_main_v39 (idx_main_v40 (ix2 i f)) = ix1 f :=
    funext fun a => Fin.ext (by match a with | ⟨0, _⟩ => rfl)
  rw [el, val_main_v41_apply, val_main_v38_apply, val_main_v37_apply, val_main_v36_apply, val_main_cst_8_apply,
    val_main_v40_apply, val_main_v39_apply, ew, w_at,
    val_main_v45_apply, er, val_main_v44_apply, val_main_v43_apply, val_main_v42_apply, val_main_cst_9_apply]
  rfl

/-- Level 3's matrix product at (i, j): the sum over the features of [X i f = 3] · w f · [Y j f = 3]. -/
theorem level3_at (h : FVec Ideal S64 .f32) (X Y : FVec Ideal S8192x64 .f32) (i j : Fin 8192) :
    val_main_v58 (F := Ideal) h X Y (ix2 i j)
      = ∑ f : Fin 64, (Cert.AA.ind 3 (X (ix2 i f)) * Cert.AA.wOf (h (ix1 f))) * Cert.AA.ind 3 (Y (ix2 j f)) := by
  rw [val_main_v58_apply]
  refine Finset.sum_congr rfl fun f _ => ?_
  have el : lidx_main_v58 (ix2 i j) f = ix2 i f :=
    funext fun a => Fin.ext (by match a with | ⟨0, _⟩ => rfl | ⟨1, _⟩ => rfl)
  have er : idx_main_v57 (ridx_main_v58 (ix2 i j) f) = ix2 j f :=
    funext fun a => Fin.ext (by match a with | ⟨0, _⟩ => rfl | ⟨1, _⟩ => rfl)
  have ew : idx_main_v51 (idx_main_v52 (ix2 i f)) = ix1 f :=
    funext fun a => Fin.ext (by match a with | ⟨0, _⟩ => rfl)
  rw [el, val_main_v53_apply, val_main_v50_apply, val_main_v49_apply, val_main_v48_apply, val_main_cst_10_apply,
    val_main_v52_apply, val_main_v51_apply, ew, w_at,
    val_main_v57_apply, er, val_main_v56_apply, val_main_v55_apply, val_main_v54_apply, val_main_cst_11_apply]
  rfl

/-- The four products added one after the other onto the zero matrix, at (i, j): the match sum as the reference
    accumulates it. (Each product is a bare sum over the features; adding the zero it is accumulated onto changes nothing.) -/
theorem match_at (h : FVec Ideal S64 .f32) (X Y : FVec Ideal S8192x64 .f32) (i j : Fin 8192) :
    val_main_v59 (F := Ideal) h X Y (ix2 i j)
      = Cert.AA.refMatch (fun f => h (ix1 f)) (fun f => X (ix2 i f)) (fun f => Y (ix2 j f)) := by
  rw [val_main_v59_apply, val_main_v47_apply, val_main_v35_apply, val_main_v23_apply, val_main_v11_apply,
    val_main_cst_3_apply, level0_at, level1_at, level2_at, level3_at]
  unfold Cert.AA.refMatch
  simp only [zero_add]
  rfl

/-- The log-distance at (i, j): the match sum plus the shift. -/
theorem logdist_at (h : FVec Ideal S64 .f32) (X Y : FVec Ideal S8192x64 .f32) (i j : Fin 8192) :
    val_main_v61 (F := Ideal) h X Y (ix2 i j)
      = Cert.AA.refMatch (fun f => h (ix1 f)) (fun f => X (ix2 i f)) (fun f => Y (ix2 j f)) + Cert.AA.baseOf (fun f => h (ix1 f)) := by
  rw [val_main_v61_apply, match_at, val_main_v60_apply, base_at]
  rfl

/-- The row maximum at test row `i`: the fold of `max` from -∞ over the log-distances to the 8192 train rows. -/
theorem rowmax_at (h : FVec Ideal S64 .f32) (X Y : FVec Ideal S8192x64 .f32) (i : Fin 8192) :
    val_main_v62 (F := Ideal) h X Y (ix1 i)
      = Cert.AA.rowMax (fun j' => Cert.AA.refMatch (fun f => h (ix1 f)) (fun f => X (ix2 i f)) (fun f => Y (ix2 j' f)) + Cert.AA.baseOf (fun f => h (ix1 f))) := by
  unfold val_main_v62
  rw [rowmax_read]
  exact congrArg Cert.AA.rowMax (funext fun j' => logdist_at h X Y i j')

/-- THE REFERENCE'S RESULT AT (i, j): the row maximum times the exponential of the log-distance less the row maximum,
    the shift left inside the maximum. -/
theorem ref_at (h : FVec Ideal S64 .f32) (X Y : FVec Ideal S8192x64 .f32) (i j : Fin 8192) :
    val_main_v68 (F := Ideal) h X Y (ix2 i j)
      = Cert.AA.refResult (fun j' => Cert.AA.refMatch (fun f => h (ix1 f)) (fun f => X (ix2 i f)) (fun f => Y (ix2 j' f)))
          (Cert.AA.baseOf fun f => h (ix1 f)) j := by
  have em : idx_main_v63 (idx_main_v64 (ix2 i j)) = ix1 i :=
    funext fun a => Fin.ext (by match a with | ⟨0, _⟩ => rfl)
  have em' : idx_main_v63 (idx_main_v67 (ix2 i j)) = ix1 i :=
    funext fun a => Fin.ext (by match a with | ⟨0, _⟩ => rfl)
  rw [val_main_v68_apply, val_main_v67_apply, val_main_v63_apply, em', val_main_v66_apply, val_main_v65_apply,
    val_main_v64_apply, val_main_v63_apply, em, rowmax_at, logdist_at]
  rfl

/-- The same for the whole array: the result is the function of the index whose value at `idx` is `refResult` of test
    row `idx 0`'s match sums, the shift, and train row `idx 1`. -/
theorem ref_eq (h : FVec Ideal S64 .f32) (X Y : FVec Ideal S8192x64 .f32) :
    val_main_v68 (F := Ideal) h X Y
      = fun idx : S8192x8192.Idx => Cert.AA.refResult
          (fun j' => Cert.AA.refMatch (fun f => h (ix1 f)) (fun f => X (ix2 (n0 := 8192) (idx 0) f)) (fun f => Y (ix2 j' f)))
          (Cert.AA.baseOf fun f => h (ix1 f)) (idx 1) := by
  funext idx
  obtain ⟨i, j, rfl⟩ : ∃ (i j : Fin 8192), idx = ix2 i j := ⟨idx 0, idx 1, eq_ix2 idx⟩
  exact ref_at h X Y i j

end Cert.ReferenceIdeal.RefValue

end
-- ==== Proof.RefBridge.lean ====
/-
  The reference's result is `G`: the reference accumulates the match sum level by level and takes the row maximum of
  the SHIFTED log-distances; level by level is the double sum (no side condition), and a real shift comes out of the
  maximum and cancels in the exponent.
-/
import proofs.«167106_j53506702573581_2_alg».proof.Proof.RefValue
import proofs.«167106_j53506702573581_2_alg».proof.Proof.SpecLaws
import proofs.«167106_j53506702573581_2_alg».proof.Proof.SpecArr

noncomputable section

namespace Cert.ReferenceIdeal.RefBridge

open Cert.ReferenceIdeal Idealize.ShloMosaic Idealize.ShloMosaic.ValueIdx

/-- With a real shift, the reference's result array is `G` of its three arguments. -/
theorem ref_is_G (h : FVec Ideal S64 .f32) (X Y : FVec Ideal S8192x64 .f32)
    (hb : ∃ s : ℝ, Cert.AA.baseOf (fun f => h (ix1 f)) = (s : EReal)) :
    Cert.ReferenceIdeal.Read.val_main_v68 (F := Ideal) h X Y = Cert.AA.Garr h X Y := by
  funext idx
  obtain ⟨i, j, rfl⟩ : ∃ (i j : Fin 8192), idx = ix2 i j := ⟨idx 0, idx 1, eq_ix2 idx⟩
  obtain ⟨s, hs⟩ := hb
  rw [Cert.ReferenceIdeal.RefValue.ref_at, Cert.AA.Garr_ix2, hs, Cert.AA.refResult_eq_result]
  unfold Cert.AA.G
  rw [hs]
  simp only [Cert.AA.refMatch_eq_matchSum]

end Cert.ReferenceIdeal.RefBridge

end
-- ==== Proof.PreFacts.lean ====
/-
  The precondition, decoded for the bandwidths.

  The precondition is a conjunction of five tests, each an "all entries" reduction of a comparison: the three inputs
  have finite entries, and every bandwidth is greater than 0 and less than 1. From the last two alone a bandwidth is a
  real number strictly between 0 and 1: an extended real above 0 is not `-∞`, and one below 1 is not `+∞`. With that
  the weight of every feature and the common shift are real numbers (SpecLaws).
-/
import proofs.«167106_j53506702573581_2_alg».proof.Proof.Gen.Pre_finite_inputs
import proofs.«167106_j53506702573581_2_alg».proof.Pre_finite_inputs
import proofs.«167106_j53506702573581_2_alg».proof.Proof.Spec
import proofs.«167106_j53506702573581_2_alg».proof.Proof.SpecLaws
import Idealize.ShloMosaic.Lib.ReduceAll
import Idealize.ShloMosaic.Lib.ValueIdx
import Idealize.ShloMosaic.Lib.IdealHost
import Idealize.ShloMosaic.PureOps.Ideal
import Idealize.ShloMosaic.PureOps.Ideal.Laws

noncomputable section

namespace Cert.AA.Pre

open Idealize.ShloMosaic

/-- A shape of rank 0 has one index. -/
instance : Subsingleton Cert.Pre_finite_inputs.S_.Idx := ⟨fun a b => funext fun d => d.elim0⟩

/-- The conjunction of two truth values, read at the one index of a rank-0 shape. -/
theorem andi_apply (a b : IVec Cert.Pre_finite_inputs.S_ 1) (i : Cert.Pre_finite_inputs.S_.Idx) :
    andi a b i = IntOp.andi (a i) (b i) := rfl

/-- The ordered "less than" comparison of two extended reals answers 1 exactly when the first is less. -/
theorem cmp_olt_eq_one (x y : EReal) : Ideal.cmp .olt x y = 1#1 ↔ x < y := by
  show BitVec.ofBool (decide (x < y)) = 1#1 ↔ x < y
  by_cases hxy : x < y <;> simp [hxy]

/-- The ordered "greater than" comparison answers 1 exactly when the second is less than the first. -/
theorem cmp_ogt_eq_one (x y : EReal) : Ideal.cmp .ogt x y = 1#1 ↔ y < x := by
  show BitVec.ofBool (decide (y < x)) = 1#1 ↔ y < x
  by_cases hxy : y < x <;> simp [hxy]

/-- An extended real strictly between 0 and 1 is a real number strictly between 0 and 1. -/
theorem real_of_pos_of_lt_one (x : EReal) (h0 : 0 < x) (h1 : x < 1) : ∃ r : ℝ, x = (r : EReal) ∧ 0 < r ∧ r < 1 := by
  induction x using EReal.rec with
  | bot => exact absurd h0 not_lt_bot
  | coe r => exact ⟨r, rfl, by exact_mod_cast h0, by exact_mod_cast h1⟩
  | top => exact absurd h1 not_top_lt

/-- Under the precondition every bandwidth is a real number strictly between 0 and 1. -/
theorem bandwidth_range [Cert.Pre_finite_inputs.Facts] (h : FVec Ideal Cert.Pre_finite_inputs.S64 .f32)
    (X Y : FVec Ideal Cert.Pre_finite_inputs.S8192x64 .f32)
    (hpre : Cert.Pre_finite_inputs.fn (F := Ideal) h X Y = (fun _ => 1#1)) (f : Fin 64) :
    ∃ r : ℝ, h (ValueIdx.ix1 f) = (r : EReal) ∧ 0 < r ∧ r < 1 := by
  have e := congrFun hpre ValueIdx.ix0
  dsimp only [Cert.Pre_finite_inputs.fn, Cert.Pre_finite_inputs.fn_part1] at e
  simp only [andi_apply, IntOp.andi_eq_one] at e
  obtain ⟨⟨-, hgt⟩, hlt⟩ := e
  have g : Ideal.cmp .ogt (h (ValueIdx.ix1 f)) (Ideal.ofBits .f32 0x00000000#32) = 1#1 :=
    Host.reduce_andi_all _ _ _ _ _ hgt (ValueIdx.ix1 f)
  have l : Ideal.cmp .olt (h (ValueIdx.ix1 f)) (Ideal.ofBits .f32 0x3F800000#32) = 1#1 :=
    Host.reduce_andi_all _ _ _ _ _ hlt (ValueIdx.ix1 f)
  rw [cmp_ogt_eq_one, Ideal.ofBits_zero_f32] at g
  rw [cmp_olt_eq_one, Ideal.ofBits_one_f32] at l
  exact real_of_pos_of_lt_one _ g l

/-- Under the precondition the weight of every feature is a real number. -/
theorem wOf_real_of_pre [Cert.Pre_finite_inputs.Facts] (h : FVec Ideal Cert.Pre_finite_inputs.S64 .f32)
    (X Y : FVec Ideal Cert.Pre_finite_inputs.S8192x64 .f32)
    (hpre : Cert.Pre_finite_inputs.fn (F := Ideal) h X Y = (fun _ => 1#1)) (f : Fin 64) :
    ∃ s : ℝ, Cert.AA.wOf (h (ValueIdx.ix1 f)) = (s : EReal) := by
  obtain ⟨r, hr, h0, h1⟩ := bandwidth_range h X Y hpre f
  exact Cert.AA.wOf_real _ r hr h0 h1

/-- Under the precondition the common shift is a real number. -/
theorem baseOf_real_of_pre [Cert.Pre_finite_inputs.Facts] (h : FVec Ideal Cert.Pre_finite_inputs.S64 .f32)
    (X Y : FVec Ideal Cert.Pre_finite_inputs.S8192x64 .f32)
    (hpre : Cert.Pre_finite_inputs.fn (F := Ideal) h X Y = (fun _ => 1#1)) :
    ∃ s : ℝ, Cert.AA.baseOf (fun f => h (ValueIdx.ix1 f)) = (s : EReal) :=
  Cert.AA.baseOf_real _ fun f => by
    obtain ⟨r, hr, h0, -⟩ := bandwidth_range h X Y hpre f
    exact ⟨r, hr, h0⟩

end Cert.AA.Pre

end
-- ==== Proof.lean ====
/-
  The certificate of the Aitchison–Aitken categorical kernel: the Pallas kernel with its one-hot tables against the
  plain jnp reference, equal as extended reals wherever every bandwidth lies strictly between 0 and 1.

  Both programs compute, for test row i and train row j,
      out(i, j) = M(i) · exp (logdist(i, j) - M(i)),   M(i) = max_j logdist(i, j),
      logdist(i, j) = base + ∑ level ∑ feature [test(i,f) = level] · w_f · [train(j,f) = level],
      w_f = log (1 - h_f) - log (h_f / 3),   base = ∑ log (h_f / 3) - ∑ log h_f.
  The reference adds one [8192,64]·[64,8192] product per level and keeps the shift `base` inside the maximum. The kernel
  lays the four levels side by side in one contraction of length 256, splits w into a leading part and a residual
  (equal to w and to w - w = 0 on the extended reals when w is real), and takes `base` out of the maximum. For
  0 < h_f < 1 every logarithm is a real number, so w_f and base are real: the residual term vanishes, the contraction
  over 256 columns is the double sum, and a real shift commutes with the maximum and cancels in the exponent.
  Outside 0 < h < 1 the reference's own logarithms leave their domain.

  The frames: each kernel program is 83 host operations followed by one pallas_call over 64 grid points, every load and
  store of the body a whole staging buffer; the reference is 84 host operations.
-/
import proofs.«167106_j53506702573581_2_alg».proof.Defs
import proofs.«167106_j53506702573581_2_alg».proof.Proof.Gen.Kernel
import proofs.«167106_j53506702573581_2_alg».proof.Proof.Gen.KernelIdeal
import proofs.«167106_j53506702573581_2_alg».proof.Proof.Gen.ReferenceIdeal
import proofs.«167106_j53506702573581_2_alg».proof.Proof.Gen.Pre_finite_inputs
import proofs.«167106_j53506702573581_2_alg».proof.Proof.Gen.ReferenceIdeal.Run
import proofs.«167106_j53506702573581_2_alg».proof.Proof.Gen.ReferenceIdeal.Read
import proofs.«167106_j53506702573581_2_alg».proof.Proof.FrameB
import proofs.«167106_j53506702573581_2_alg».proof.Proof.FrameI
import proofs.«167106_j53506702573581_2_alg».proof.Proof.KValue
import proofs.«167106_j53506702573581_2_alg».proof.Proof.KBridge
import proofs.«167106_j53506702573581_2_alg».proof.Proof.RefBridge
import proofs.«167106_j53506702573581_2_alg».proof.Proof.PreFacts
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result array at `G` of the (agreeing) arguments. -/
theorem algebraic : Cert.algebraic_KernelIdeal_ReferenceIdeal := by
  intro m ρ m' ρ' hpre hagree
  refine ⟨fun c => Cert.AA.Garr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Hand.run_main (F := Ideal) m ρ)
    have hw := fun f => Cert.AA.Pre.wOf_real_of_pre _ _ _ (hpre c) f
    exact ⟨((h c).1 4).trans ((Cert.KernelIdeal.KValue.final m c).trans (Cert.KernelIdeal.KBridge.kernel_is_G m c hw)),
      ((h c).2 Cert.KernelIdeal.main_arg0 (Pipeline.mem_restRefs_of Cert.KernelIdeal.main_arg0 (by decide) (by decide))).trans (Cert.KernelIdeal.Hand.V_main_arg0 m c),
      ((h c).2 Cert.KernelIdeal.main_arg1 (Pipeline.mem_restRefs_of Cert.KernelIdeal.main_arg1 (by decide) (by decide))).trans (Cert.KernelIdeal.Hand.V_main_arg1 m c),
      ((h c).2 Cert.KernelIdeal.main_arg2 (Pipeline.mem_restRefs_of Cert.KernelIdeal.main_arg2 (by decide) (by decide))).trans (Cert.KernelIdeal.Hand.V_main_arg2 m c)⟩
  · refine (θ_run Cert.ReferenceIdeal.defs _ _).mono (fun r h c => ?_) (Cert.ReferenceIdeal.Value.run (F := Ideal) m' ρ')
    obtain ⟨h0, h1, h2⟩ := hagree c
    have hb := Cert.AA.Pre.baseOf_real_of_pre _ _ _ (hpre c)
    refine ⟨?_, (h c).2⟩
    rw [(h c).1, Cert.ReferenceIdeal.Read.val_main_v68_eq, h0, h1, h2]
    exact Cert.ReferenceIdeal.RefBridge.ref_is_G _ _ _ hb

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
